-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) (main_arg1 : IVec S16384x64 32) (main_arg2 : IVec S16384x64 1) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  main_v3
-- ==== Kernel.lean ====
abbrev S16384x64 : Shape := ⟨2, ![16384, 64]⟩
abbrev S1x1 : Shape := ⟨2, ![1, 1]⟩
abbrev S128x64 : Shape := ⟨2, ![128, 64]⟩
abbrev S128x64x1 : Shape := ⟨3, ![128, 64, 1]⟩
abbrev S128x1x64 : Shape := ⟨3, ![128, 1, 64]⟩
abbrev S128x64x64 : Shape := ⟨3, ![128, 64, 64]⟩
abbrev S128 : Shape := ⟨1, ![128]⟩
abbrev S1x128 : Shape := ⟨2, ![1, 128]⟩
abbrev S1 : Shape := ⟨1, ![1]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S16384x64, .i32⟩
  | .hbm, ⟨2, _⟩ => ⟨S16384x64, .i1⟩
  | .hbm, ⟨3, _⟩ => ⟨S16384x64, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S128x64, .f32⟩
  | .local _ .vmem, ⟨1, _⟩ => ⟨S128x64, .f32⟩
  | .local _ .vmem, ⟨2, _⟩ => ⟨S128x64, .i32⟩
  | .local _ .vmem, ⟨3, _⟩ => ⟨S128x64, .i32⟩
  | .local _ .vmem, ⟨4, _⟩ => ⟨S128x64, .i32⟩
  | .local _ .vmem, ⟨5, _⟩ => ⟨S128x64, .i32⟩
  | .local _ .vmem, ⟨6, _⟩ => ⟨S1x1, .f32⟩
  | .local _ .vmem, ⟨7, _⟩ => ⟨S1x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  natLt_1_32 : 1 < 32
  inb_S1x1_S1x1_0_0 : ∀ a, (![0, 0] : Fin 2 → Nat) a + S1x1.size a ≤ S1x1.size a
  h_S1x1 : 0 < S1x1.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S128x64_S128x64x1 : S128x64.ShapeCasts S128x64x1
  shapeCasts_S128x64_S128x1x64 : S128x64.ShapeCasts S128x1x64
  broadcasts_S128x64x1_S128x64x64 : S128x64x1.Broadcasts S128x64x64
  broadcasts_S128x1x64_S128x64x64 : S128x1x64.Broadcasts S128x64x64
  reduces_S128x64x64_S128x64 : S128x64x64.Reduces [2] S128x64
  reduces_S128x64_S128 : S128x64.Reduces [1] S128
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S16384x64.size a
  hwx0_0 : ∀ i : grid0.Coords, EltTy.bits .f32 = 32 ∨ (Rect.block (s := S16384x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S16384x64.size a
  hwx0_1 : ∀ i : grid0.Coords, EltTy.bits .i32 = 32 ∨ (Rect.block (s := S16384x64) S128x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S16384x64.size a
  hwx0_2 : ∀ i : grid0.Coords, EltTy.bits .i32 = 32 ∨ (Rect.block (s := S16384x64) S128x64.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S_ : Shape := ⟨0, ![]⟩
abbrev S16384x64x1 : Shape := ⟨3, ![16384, 64, 1]⟩
abbrev S16384x1x64 : Shape := ⟨3, ![16384, 1, 64]⟩
abbrev S16384x64x64 : Shape := ⟨3, ![16384, 64, 64]⟩
abbrev S16384 : Shape := ⟨1, ![16384]⟩

abbrev nBuf : Space → Nat
  | .hbm => 55
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .i32⟩
  | .hbm, ⟨2, _⟩ => ⟨S16384x64, .i1⟩
  | .hbm, ⟨3, _⟩ => ⟨S_, .i32⟩
  | .hbm, ⟨4, _⟩ => ⟨S16384x64, .i32⟩
  | .hbm, ⟨5, _⟩ => ⟨S16384x64, .i1⟩
  | .hbm, ⟨6, _⟩ => ⟨S16384x64, .i1⟩
  | .hbm, ⟨7, _⟩ => ⟨S16384x64x1, .i1⟩
  | .hbm, ⟨8, _⟩ => ⟨S16384x1x64, .i1⟩
  | .hbm, ⟨9, _⟩ => ⟨S16384x64x64, .i1⟩
  | .hbm, ⟨10, _⟩ => ⟨S16384x64x64, .i1⟩
  | .hbm, ⟨11, _⟩ => ⟨S16384x64x64, .i1⟩
  | .hbm, ⟨12, _⟩ => ⟨S16384x64x1, .i32⟩
  | .hbm, ⟨13, _⟩ => ⟨S16384x1x64, .i32⟩
  | .hbm, ⟨14, _⟩ => ⟨S16384x64x64, .i32⟩
  | .hbm, ⟨15, _⟩ => ⟨S16384x64x64, .i32⟩
  | .hbm, ⟨16, _⟩ => ⟨S16384x64x64, .i1⟩
  | .hbm, ⟨17, _⟩ => ⟨S16384x64x64, .i1⟩
  | .hbm, ⟨18, _⟩ => ⟨S16384x64x1, .f32⟩
  | .hbm, ⟨19, _⟩ => ⟨S16384x1x64, .f32⟩
  | .hbm, ⟨20, _⟩ => ⟨S16384x64x64, .f32⟩
  | .hbm, ⟨21, _⟩ => ⟨S16384x64x64, .f32⟩
  | .hbm, ⟨22, _⟩ => ⟨S16384x64x64, .f32⟩
  | .hbm, ⟨23, _⟩ => ⟨S_, .f32⟩
  | .hbm, ⟨24, _⟩ => ⟨S16384x64x64, .f32⟩
  | .hbm, ⟨25, _⟩ => ⟨S16384x64x64, .f32⟩
  | .hbm, ⟨26, _⟩ => ⟨S_, .f32⟩
  | .hbm, ⟨27, _⟩ => ⟨S16384x64x64, .f32⟩
  | .hbm, ⟨28, _⟩ => ⟨S16384x64x64, .f32⟩
  | .hbm, ⟨29, _⟩ => ⟨S16384x64x64, .f32⟩
  | .hbm, ⟨30, _⟩ => ⟨S_, .f32⟩
  | .hbm, ⟨31, _⟩ => ⟨S16384, .f32⟩
  | .hbm, ⟨32, _⟩ => ⟨S16384x64x64, .f32⟩
  | .hbm, ⟨33, _⟩ => ⟨S_, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .i1⟩
  | .hbm, ⟨42, _⟩ => ⟨S16384, .f32⟩
  | .hbm, ⟨43, _⟩ => ⟨S_, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S_S16384x64 : S_.BroadcastsInDim S16384x64 (![] : Fin 0 → Fin S16384x64.rank)
  bcast_S16384x64_S16384x64x1_0_1 : S16384x64.BroadcastsInDim S16384x64x1 (![0, 1] : Fin 2 → Fin S16384x64x1.rank)
  bcast_S16384x64_S16384x1x64_0_2 : S16384x64.BroadcastsInDim S16384x1x64 (![0, 2] : Fin 2 → Fin S16384x1x64.rank)
  bcast_S16384x64x1_S16384x64x64_0_1_2 : S16384x64x1.BroadcastsInDim S16384x64x64 (![0, 1, 2] : Fin 3 → Fin S16384x64x64.rank)
  bcast_S16384x1x64_S16384x64x64_0_1_2 : S16384x1x64.BroadcastsInDim S16384x64x64 (![0, 1, 2] : Fin 3 → Fin S16384x64x64.rank)
  bcast_S_S16384x64x64 : S_.BroadcastsInDim S16384x64x64 (![] : Fin 0 → Fin S16384x64x64.rank)
  reducesTo_S16384x64x64_S16384_d1_2 : S16384x64x64.ReducesTo [1, 2] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.Spec.lean ====
/-
  The pairwise ranking loss, as one function of the three argument arrays, over the extended reals.

  For every race `r` (a row of 64 runners) a runner `j` is VALID when it is present (`mask`) and has a positive
  ranking; an ordered pair `(j, k)` COUNTS when both are valid and `j` is ranked strictly ahead of `k`; a counted pair
  pays the hinge `max (1 - (s_j - s_k)) 0`. A race's loss is the sum of what its counted pairs pay over the number of
  counted pairs (at least one), a race CONTRIBUTES when it has a counted pair, and the result is the mean of the
  contributing races' losses, `0` when no race contributes.

  Also here: the arithmetic of the 0/1 values a one-bit word denotes, and the two re-groupings of a finite sum the two
  programs differ by — a sum over a row's `64 × 64` pairs taken lane by lane or all at once, and a sum over the
  `16384` races taken block of `128` by block of `128` with a running total, or all at once. Sums in the extended
  reals re-group freely (addition is commutative and associative there); nothing needs the inputs finite.
-/
import Idealize.ShloMosaic.PureOps.Ideal
import Idealize.ShloMosaic.PureOps.Ideal.Laws
import Idealize.ShloMosaic.Lib.ValueIdx

noncomputable section

open scoped BigOperators

namespace Cert.PairRank

open Idealize.ShloMosaic Idealize.ShloMosaic.ValueIdx

/-- The shape of the three arguments: 16384 races of 64 runners. -/
abbrev Races : Shape := ⟨2, ![16384, 64]⟩

/-- The f32 words `0.0` and `1.0` as extended reals (kept as words: both programs spell the same ones). -/
abbrev zero : EReal := Ideal.ofBits .f32 0x00000000#32
abbrev one : EReal := Ideal.ofBits .f32 0x3F800000#32

/-- The number a one-bit word denotes: `0` or `1`. -/
def bit (b : BitVec 1) : EReal := ((b.toNat : ℝ) : EReal)

section Spec

variable (s : Races.Idx → EReal) (rk : Races.Idx → BitVec 32) (mk : Races.Idx → BitVec 1)

/-- Runner `j` of race `r` is present and positively ranked. -/
def valid (r : Fin 16384) (j : Fin 64) : BitVec 1 :=
  IntOp.andi (mk (ix2 r j)) (IntOp.cmpi .sgt (rk (ix2 r j)) 0#32)

/-- The ordered pair `(j, k)` of race `r` counts: both valid, `j` ranked strictly ahead of `k`. -/
def pair (r : Fin 16384) (j k : Fin 64) : EReal :=
  bit (IntOp.andi (IntOp.andi (valid rk mk r j) (valid rk mk r k)) (IntOp.cmpi .slt (rk (ix2 r j)) (rk (ix2 r k))))

/-- What the pair pays: `max (1 - (s_j - s_k)) 0`. -/
def hinge (r : Fin 16384) (j k : Fin 64) : EReal :=
  max (one - (s (ix2 r j) - s (ix2 r k))) zero

/-- The number of counted pairs of race `r`. -/
def numPairs (r : Fin 16384) : EReal := ∑ j : Fin 64, ∑ k : Fin 64, pair rk mk r j k

/-- What race `r`'s counted pairs pay in all. -/
def paid (r : Fin 16384) : EReal := ∑ j : Fin 64, ∑ k : Fin 64, hinge s r j k * pair rk mk r j k

/-- Race `r` has a counted pair. -/
def has (r : Fin 16384) : EReal := bit (Ideal.cmp .ogt (numPairs rk mk r) zero)

/-- Race `r`'s loss, counted only if it contributes. -/
def share (r : Fin 16384) : EReal :=
  Ideal.div (paid s rk mk r) (max (numPairs rk mk r) one) * has rk mk r

/-- The number of contributing races, and the sum of their losses. -/
def count : EReal := ∑ r : Fin 16384, has rk mk r
def total : EReal := ∑ r : Fin 16384, share s rk mk r

/-- THE RESULT: the mean loss over the contributing races, `0` when there is none. -/
def result : EReal :=
  Scalar.select (Ideal.cmp .ogt (count rk mk) zero) (Ideal.div (total s rk mk) (max (count rk mk) one)) zero

end Spec

/-! ## One-bit words as numbers -/

theorem bit_zero : bit 0#1 = 0 := by simp [bit]
theorem bit_one : bit 1#1 = 1 := by simp [bit]

theorem bv1_cases (b : BitVec 1) : b = 0#1 ∨ b = 1#1 := by
  by_cases h : b = 1#1
  · exact Or.inr h
  · exact Or.inl (eq_zero_of_ne_one h)

/-- A one-bit word widened without sign to 32 bits and then read as a SIGNED integer is still `0` or `1`. -/
theorem toInt_setWidth_bit (b : BitVec 1) : (((b.setWidth 32).toInt : ℝ) : EReal) = bit b := by
  rcases bv1_cases b with rfl | rfl
  · simp [bit]
  · simp [bit]

/-- The product of two 0/1 values is the value of the conjunction. -/
theorem bit_mul (a b : BitVec 1) : bit a * bit b = bit (IntOp.andi a b) := by
  rcases bv1_cases a with rfl | rfl <;> rcases bv1_cases b with rfl | rfl <;> simp [bit, IntOp.andi]

/-- A one-bit word widened to 32 bits is non-zero exactly when it is set. -/
theorem ne_zero_setWidth (b : BitVec 1) : IntOp.cmpi .ne (b.setWidth 32) 0#32 = b := by
  rcases bv1_cases b with rfl | rfl <;> decide

/-! ## Re-grouping the sums -/

/-- Race `128 t + b`: row `b` of block `t`. -/
def raceOf (t b : Fin 128) : Fin 16384 := ⟨128 * t.val + b.val, by have := t.isLt; have := b.isLt; omega⟩

/-- A sum over the 16384 races is the sum over the 128 blocks of the sums over each block's 128 rows. -/
theorem sum_races {M : Type*} [AddCommMonoid M] (f : Fin 16384 → M) :
    ∑ r : Fin 16384, f r = ∑ t : Fin 128, ∑ b : Fin 128, f (raceOf t b) := by
  rw [← Finset.sum_product', Finset.univ_product_univ]
  refine (Fintype.sum_equiv (finProdFinEquiv (m := 128) (n := 128)) _ _ fun p => ?_).symm
  refine congrArg f (Fin.ext ?_)
  show 128 * p.1.val + p.2.val = p.2.val + 128 * p.1.val
  omega

/-- A running total that starts at `a 0` and adds `a (n + 1)` at step `n + 1` is the sum of the terms so far. -/
theorem run_eq_sum {M : Type*} [AddCommMonoid M] (N : Nat) (a : Nat → M) (c : Nat → M)
    (h0 : c 0 = a 0) (hs : ∀ n, n + 1 < N → c (n + 1) = c n + a (n + 1)) :
    ∀ n, n < N → c n = ∑ i ∈ Finset.range (n + 1), a i
  | 0, _ => by rw [h0]; simp
  | n + 1, h => by rw [hs n h, run_eq_sum N a c h0 hs n (Nat.lt_of_succ_lt h), Finset.sum_range_succ _ (n + 1)]

end Cert.PairRank

end
-- ==== Proof.Pieces.lean ====
/-
  What the kernel body leaves in its two one-word accumulators, read back as values.

  At the first block the body stores the zero word in both accumulators, reads it back and adds the block's two sums;
  at every later block it adds the block's two sums to what the accumulators held. The block's sums are functions of
  the three input blocks alone: the loss total over the block's 128 races, and the number of its contributing races.
-/
import proofs.«141919_j3427383902894_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Cert.KernelIdeal Cert.KernelIdeal.Gen Idealize.ShloMosaic.Tactic
namespace Cert.KernelIdeal.Pieces

variable {F : FTy → Type} [FloatOps F]

theorem hz : (![0, 0] : Fin 2 → Nat) = fun _ => 0 := funext fun a => by fin_cases a <;> rfl

/-- The word `1.0` the body divides against. -/
abbrev oneW : F .f32 := Scalar.ofBits .f32 0x3F800000#32

/-- The loss accumulator after a block, from what it held (`acc`) and the three input blocks. -/
abbrev stepTotal (x0 : Vec F S128x64 .f32) (x1 : Vec F S128x64 .i32) (x2 : Vec F S128x64 .i32) (acc : Vec F S1x1 .f32) : Vec F S1x1 .f32 :=
  k0_pay2 (k0_pay7 x1 x2) (k0_pay8 x0 x1 x2) oneW acc

/-- The count accumulator after a block, from what it held and the two integer input blocks. -/
abbrev stepCount (x1 : Vec F S128x64 .i32) (x2 : Vec F S128x64 .i32) (acc : Vec F S1x1 .f32) : Vec F S1x1 .f32 :=
  k0_pay3 (k0_pay7 x1 x2) acc

/-- First block, loss accumulator: the zero word, then the block's total added. -/
theorem first_total (c : Dev nD) (i : grid0.Coords) (a1 : Memref sig .tc .vmem S128x64 .f32) (h1 : a1.IsWhole) (a2 : Memref sig .tc .vmem S128x64 .i32) (h2 : a2.IsWhole) (a3 : Memref sig .tc .vmem S128x64 .i32) (h3 : a3.IsWhole) (a4 : Memref sig .tc .vmem S1x1 .f32) (h4 : a4.IsWhole) (a5 : Memref sig .tc .vmem S1x1 .f32) (h5 : a5.IsWhole) (hc : cond0_0 i) (x0 : Vec F S128x64 .f32) (x1 : Vec F S128x64 .i32) (x2 : Vec F S128x64 .i32) :
    out0_A_3 c i a1 h1 a2 h2 a3 h3 a4 h4 a5 h5 hc x0 x1 x2 = stepTotal x0 x1 x2 (k0_pay4 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S128x64) hz]

/-- First block, count accumulator: the zero word, then the block's count added. -/
theorem first_count (c : Dev nD) (i : grid0.Coords) (a1 : Memref sig .tc .vmem S128x64 .f32) (h1 : a1.IsWhole) (a2 : Memref sig .tc .vmem S128x64 .i32) (h2 : a2.IsWhole) (a3 : Memref sig .tc .vmem S128x64 .i32) (h3 : a3.IsWhole) (a4 : Memref sig .tc .vmem S1x1 .f32) (h4 : a4.IsWhole) (a5 : Memref sig .tc .vmem S1x1 .f32) (h5 : a5.IsWhole) (hc : cond0_0 i) (x0 : Vec F S128x64 .f32) (x1 : Vec F S128x64 .i32) (x2 : Vec F S128x64 .i32) :
    out0_A_4 c i a1 h1 a2 h2 a3 h3 a4 h4 a5 h5 hc x0 x1 x2 = stepCount x1 x2 (k0_pay5 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S128x64) hz]

/-- A later block, loss accumulator: the block's total added to what it held. -/
theorem later_total (c : Dev nD) (i : grid0.Coords) (a1 : Memref sig .tc .vmem S128x64 .f32) (h1 : a1.IsWhole) (a2 : Memref sig .tc .vmem S128x64 .i32) (h2 : a2.IsWhole) (a3 : Memref sig .tc .vmem S128x64 .i32) (h3 : a3.IsWhole) (a4 : Memref sig .tc .vmem S1x1 .f32) (h4 : a4.IsWhole) (a5 : Memref sig .tc .vmem S1x1 .f32) (h5 : a5.IsWhole) (hc : ¬cond0_0 i) (x0 : Vec F S128x64 .f32) (x1 : Vec F S128x64 .i32) (x2 : Vec F S128x64 .i32) (xo3 xo4 : Vec F S1x1 .f32) :
    out0_B_3 c i a1 h1 a2 h2 a3 h3 a4 h4 a5 h5 hc x0 x1 x2 xo3 xo4 = stepTotal x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  sl_unfold_words
  rw [View.canon_unit_zero hz]
  simp only [View.readAt_eq_ld, h1.read_unread, h2.read_unread, h3.read_unread, h4.read_unread, View.ld_unit_zero (S := S128x64) hz,
    View.ld_unit_zero (S := S1x1) hz]

/-- A later block, count accumulator: the block's count added to what it held. -/
theorem later_count (c : Dev nD) (i : grid0.Coords) (a1 : Memref sig .tc .vmem S128x64 .f32) (h1 : a1.IsWhole) (a2 : Memref sig .tc .vmem S128x64 .i32) (h2 : a2.IsWhole) (a3 : Memref sig .tc .vmem S128x64 .i32) (h3 : a3.IsWhole) (a4 : Memref sig .tc .vmem S1x1 .f32) (h4 : a4.IsWhole) (a5 : Memref sig .tc .vmem S1x1 .f32) (h5 : a5.IsWhole) (hc : ¬cond0_0 i) (x0 : Vec F S128x64 .f32) (x1 : Vec F S128x64 .i32) (x2 : Vec F S128x64 .i32) (xo3 xo4 : Vec F S1x1 .f32) :
    out0_B_4 c i a1 h1 a2 h2 a3 h3 a4 h4 a5 h5 hc x0 x1 x2 xo3 xo4 = stepCount x1 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero hz]
  simp only [View.readAt_eq_ld, h1.read_unread, h2.read_unread, h3.read_unread, h5.read_unread, View.ld_unit_zero (S := S128x64) hz,
    View.ld_unit_zero (S := S1x1) hz]

end Cert.KernelIdeal.Pieces

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.Lanes.lean ====
/-
  The re-arrangements the kernel makes of a block of 128 races × 64 runners, each read at explicit coordinates.

  * a `[128, 64]` block viewed as a column `[128, 64, 1]` of runners `j`, or as a row `[128, 1, 64]` of runners `k`: the
    same entry `(b, j)`, resp. `(b, k)`;
  * the column spread along the last axis and the row spread along the middle axis, to the `[128, 64, 64]` table of
    ordered pairs: entry `(b, j, k)` of the first is the block's `(b, j)`, of the second the block's `(b, k)`;
  * the sum of the pair table over `k`, then of the result over `j`: the double sum over a race's ordered pairs;
  * the sum of a `[128]` vector, taken as the lane sum of its `[1, 128]` view and read back through a `[1, 1]` word.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«141919_j3427383902894_2_alg».proof.Proof.LibRowLayout

noncomputable section

open scoped BigOperators

namespace Cert.PairRank.Lanes

open Idealize.ShloMosaic Idealize.ShloMosaic.ValueIdx

abbrev Blk : Shape := ⟨2, ![128, 64]⟩
abbrev Col : Shape := ⟨3, ![128, 64, 1]⟩
abbrev Row : Shape := ⟨3, ![128, 1, 64]⟩
abbrev Tbl : Shape := ⟨3, ![128, 64, 64]⟩

variable {α : Type}

/-- The block as a column of runners: `(b, j, 0)` is the block's `(b, j)`. -/
theorem col_apply (x : Blk.Idx → α) (h : Blk.ShapeCasts Col) (b : Fin 128) (j : Fin 64) (u : Fin 1) :
    shapeCast Col x h (ix3 b j u) = x (ix2 b j) :=
  shapeCast_apply x h _ _ (by
    rw [Shape.rowMajor_val_two, Shape.rowMajor_val_three]
    show b.val * 64 + j.val = (b.val * 64 + j.val) * 1 + u.val
    omega)

/-- The block as a row of runners: `(b, 0, k)` is the block's `(b, k)`. -/
theorem row_apply (x : Blk.Idx → α) (h : Blk.ShapeCasts Row) (b : Fin 128) (u : Fin 1) (k : Fin 64) :
    shapeCast Row x h (ix3 b u k) = x (ix2 b k) :=
  shapeCast_apply x h _ _ (by
    rw [Shape.rowMajor_val_two, Shape.rowMajor_val_three]
    show b.val * 64 + k.val = (b.val * 1 + u.val) * 64 + k.val
    omega)

/-- The column spread over the second runner: `(b, j, k)` is the column's `(b, j, 0)`. -/
theorem spreadCol_apply (y : Col.Idx → α) (h : Col.Broadcasts Tbl) (b : Fin 128) (j k : Fin 64) :
    broadcastTo Tbl y h (ix3 b j k) = y (ix3 b j (0 : Fin 1)) :=
  broadcastTo_apply y h _ _ (fun a => match a with
    | ⟨0, _⟩ => by show b.val = if (128 : Nat) = 1 then 0 else b.val; rw [if_neg (by decide)]
    | ⟨1, _⟩ => by show j.val = if (64 : Nat) = 1 then 0 else j.val; rw [if_neg (by decide)]
    | ⟨2, _⟩ => by show 0 = if (1 : Nat) = 1 then 0 else k.val; rw [if_pos rfl])

/-- The row spread over the first runner: `(b, j, k)` is the row's `(b, 0, k)`. -/
theorem spreadRow_apply (y : Row.Idx → α) (h : Row.Broadcasts Tbl) (b : Fin 128) (j k : Fin 64) :
    broadcastTo Tbl y h (ix3 b j k) = y (ix3 b (0 : Fin 1) k) :=
  broadcastTo_apply y h _ _ (fun a => match a with
    | ⟨0, _⟩ => by show b.val = if (128 : Nat) = 1 then 0 else b.val; rw [if_neg (by decide)]
    | ⟨1, _⟩ => by show 0 = if (1 : Nat) = 1 then 0 else j.val; rw [if_pos rfl]
    | ⟨2, _⟩ => by show k.val = if (64 : Nat) = 1 then 0 else k.val; rw [if_neg (by decide)])

/-- Both together: the block's `(b, j)` at every `k`, and its `(b, k)` at every `j`. -/
theorem first_apply (x : Blk.Idx → α) (hc : Blk.ShapeCasts Col) (hb : Col.Broadcasts Tbl) (b : Fin 128) (j k : Fin 64) :
    broadcastTo Tbl (shapeCast Col x hc) hb (ix3 b j k) = x (ix2 b j) :=
  (spreadCol_apply _ hb b j k).trans (col_apply x hc b j 0)

theorem second_apply (x : Blk.Idx → α) (hc : Blk.ShapeCasts Row) (hb : Row.Broadcasts Tbl) (b : Fin 128) (j k : Fin 64) :
    broadcastTo Tbl (shapeCast Row x hc) hb (ix3 b j k) = x (ix2 b k) :=
  (spreadRow_apply _ hb b j k).trans (row_apply x hc b 0 k)

/-- The pair table summed over the second runner. -/
theorem sumSecond_apply (v : FVec Ideal Tbl .f32) (h : Tbl.Reduces [(2 : Fin 3)] Blk) (hφ : FKind.Formats .f32)
    (hacc : (0x00000000#32 : BitVec 32) = FKind.add.neutral .f32 hφ) (b : Fin 128) (j : Fin 64) :
    multiReduction .add [(2 : Fin 3)] Blk v 0x00000000#32 h hφ hacc (ix2 b j) = ∑ k : Fin 64, v (ix3 b j k) := by
  refine (Ideal.multiReduction_add_single v 0x00000000#32 h hφ hacc (ix2 b j)).trans ?_
  refine Finset.sum_congr rfl fun k _ => ?_
  exact congrArg v (funext fun a => Fin.ext (by match a with | ⟨0, _⟩ => rfl | ⟨1, _⟩ => rfl | ⟨2, _⟩ => rfl))

/-- So the table summed over the second runner and then over the first is the double sum over a race's ordered pairs. -/
theorem sumPairs_apply (v : FVec Ideal Tbl .f32) (h2 : Tbl.Reduces [(2 : Fin 3)] Blk) (h1 : Blk.Reduces [(1 : Fin 2)] ⟨1, ![128]⟩)
    (hφ : FKind.Formats .f32) (hacc : (0x00000000#32 : BitVec 32) = FKind.add.neutral .f32 hφ) (b : Fin 128) :
    multiReduction .add [(1 : Fin 2)] ⟨1, ![128]⟩ (multiReduction .add [(2 : Fin 3)] Blk v 0x00000000#32 h2 hφ hacc) 0x00000000#32 h1 hφ hacc (ix1 b)
      = ∑ j : Fin 64, ∑ k : Fin 64, v (ix3 b j k) := by
  refine (Cert.RowLayout.laneSum_apply _ h1 hφ hacc b).trans ?_
  exact Finset.sum_congr rfl fun j _ => sumSecond_apply v h2 hφ hacc b j

/-- The sum of a `[128]` vector as the kernel takes it: viewed `[1, 128]`, summed along the lanes to one word, that word
    viewed `[1, 1]` and read at its one position. -/
theorem sumAll_apply (w : FVec Ideal ⟨1, ![128]⟩ .f32) (hc : Shape.ShapeCasts ⟨1, ![128]⟩ ⟨2, ![1, 128]⟩)
    (hr : Shape.Reduces (⟨2, ![1, 128]⟩ : Shape) [(1 : Fin 2)] ⟨1, ![1]⟩) (hc' : Shape.ShapeCasts ⟨1, ![1]⟩ ⟨2, ![1, 1]⟩)
    (hφ : FKind.Formats .f32) (hacc : (0x00000000#32 : BitVec 32) = FKind.add.neutral .f32 hφ)
    (hp : ∀ a, (![0, 0] : Fin 2 → Nat) a < (⟨2, ![1, 1]⟩ : Shape).size a) :
    extractAt ![0, 0] (shapeCast ⟨2, ![1, 1]⟩ (multiReduction .add [(1 : Fin 2)] ⟨1, ![1]⟩ (shapeCast ⟨2, ![1, 128]⟩ w hc) 0x00000000#32 hr hφ hacc) hc') hp
      = ∑ b : Fin 128, w (ix1 b) := by
  have e : (fun a => (⟨(![0, 0] : Fin 2 → Nat) a, hp a⟩ : Fin ((⟨2, ![1, 1]⟩ : Shape).size a))) = ix2 (0 : Fin 1) (0 : Fin 1) :=
    funext fun a => Fin.ext (by match a with | ⟨0, _⟩ => rfl | ⟨1, _⟩ => rfl)
  unfold extractAt
  rw [e]
  refine (shapeCast_a_1a_apply _ hc' 0 0).trans ?_
  refine (Cert.RowLayout.laneSum_apply _ hr hφ hacc 0).trans ?_
  exact Finset.sum_congr rfl fun b _ => shapeCast_a_1a_apply w hc 0 b

end Cert.PairRank.Lanes

end
-- ==== Proof.Payload.lean ====
/-
  The kernel body's arithmetic on one block of 128 races, read at an index, at the extended reals.

  The three input blocks of grid point `t` hold rows `128 t + b` of the arguments (the mask widened to a 32-bit word).
  Read at race `b` of the block, the body's pair table is the specification's 0/1 value of "the ordered pair counts"
  — the product of the two validity values and the comparison's value is the value of their conjunction —, its two
  double sums are the race's number of counted pairs and what they pay, and the two words it adds to the accumulators
  are the block's sums of the races' shares and of their "contributes" values.
-/
import proofs.«141919_j3427383902894_2_alg».proof.Proof.Gen.KernelIdeal.Skeleton
import proofs.«141919_j3427383902894_2_alg».proof.Proof.Pieces
import proofs.«141919_j3427383902894_2_alg».proof.Proof.Spec
import proofs.«141919_j3427383902894_2_alg».proof.Proof.Lanes

noncomputable section

open scoped BigOperators
open Idealize.ShloMosaic Idealize.ShloMosaic.ValueIdx

namespace Cert.KernelIdeal.Payload

open Cert.KernelIdeal Cert.KernelIdeal.Gen Cert.PairRank Cert.PairRank.Lanes Cert.KernelIdeal.Pieces

/-! ## The body's intermediate values, one term each -/

/-- The validity of each runner of the block, as a 0/1 float. -/
def validBlk (x1 x2 : Vec Ideal S128x64 .i32) : FVec Ideal S128x64 .f32 :=
  sitofp .f32 (extui 32 (andi (cmpi .ne (shapeCast S128x64 x2 shapeCasts_S128x64_S128x64) (broadcast S128x64 0#32))
    (cmpi .sgt x1 (broadcast S128x64 0#32))) natLt_1_32)

/-- "Runner `j` is ranked strictly ahead of runner `k`", over the table of ordered pairs, as a 0/1 float. -/
def aheadTbl (x1 : Vec Ideal S128x64 .i32) : FVec Ideal S128x64x64 .f32 :=
  sitofp .f32 (extui 32 (cmpi .slt
    (broadcastTo S128x64x64 (shapeCast S128x64x1 x1 shapeCasts_S128x64_S128x64x1) broadcasts_S128x64x1_S128x64x64)
    (broadcastTo S128x64x64 (shapeCast S128x1x64 x1 shapeCasts_S128x64_S128x1x64) broadcasts_S128x1x64_S128x64x64)) natLt_1_32)

/-- The hinge `max (1 - (s_j - s_k)) 0` over the table of ordered pairs. -/
def hingeTbl (x0 : Vec Ideal S128x64 .f32) : FVec Ideal S128x64x64 .f32 :=
  maximumf (subf (broadcast S128x64x64 (Scalar.ofBits .f32 0x3F800000#32))
    (subf (broadcastTo S128x64x64 (shapeCast S128x64x1 x0 shapeCasts_S128x64_S128x64x1) broadcasts_S128x64x1_S128x64x64)
      (broadcastTo S128x64x64 (shapeCast S128x1x64 x0 shapeCasts_S128x64_S128x1x64) broadcasts_S128x1x64_S128x64x64)))
    (broadcast S128x64x64 (Scalar.ofBits .f32 0x00000000#32))

/-- The pair table is the product of the two validities and the comparison. -/
theorem pairTbl_eq (x1 x2 : Vec Ideal S128x64 .i32) : k0_pay6 (F := Ideal) x1 x2
    = mulf (mulf (broadcastTo S128x64x64 (shapeCast S128x64x1 (validBlk x1 x2) shapeCasts_S128x64_S128x64x1) broadcasts_S128x64x1_S128x64x64)
        (broadcastTo S128x64x64 (shapeCast S128x1x64 (validBlk x1 x2) shapeCasts_S128x64_S128x1x64) broadcasts_S128x1x64_S128x64x64))
      (aheadTbl x1) := rfl

/-- The number of counted pairs per race: the pair table summed over both runners. -/
theorem count_eq (x1 x2 : Vec Ideal S128x64 .i32) : k0_pay7 (F := Ideal) x1 x2
    = multiReduction .add [1] S128 (multiReduction .add [2] S128x64 (k0_pay6 x1 x2) 0x00000000#32 reduces_S128x64x64_S128x64 (.inl rfl) rfl)
        0x00000000#32 reduces_S128x64_S128 (.inl rfl) rfl := rfl

/-- What the counted pairs pay per race: hinge times pair table, summed over both runners. -/
theorem paid_eq (x0 : Vec Ideal S128x64 .f32) (x1 x2 : Vec Ideal S128x64 .i32) : k0_pay8 (F := Ideal) x0 x1 x2
    = multiReduction .add [1] S128 (multiReduction .add [2] S128x64 (mulf (hingeTbl x0) (k0_pay6 x1 x2)) 0x00000000#32
        reduces_S128x64x64_S128x64 (.inl rfl) rfl) 0x00000000#32 reduces_S128x64_S128 (.inl rfl) rfl := rfl

/-! ## Read at a race of block `t` -/

section AtBlock

variable (s : Races.Idx → EReal) (rk : Races.Idx → BitVec 32) (mk : Races.Idx → BitVec 1) (t : Fin 128)
variable (x0 : Vec Ideal S128x64 .f32) (x1 x2 : Vec Ideal S128x64 .i32)
variable (hx0 : ∀ (b : Fin 128) (j : Fin 64), x0 (ix2 b j) = s (ix2 (raceOf t b) j))
variable (hx1 : ∀ (b : Fin 128) (j : Fin 64), x1 (ix2 b j) = rk (ix2 (raceOf t b) j))
variable (hx2 : ∀ (b : Fin 128) (j : Fin 64), x2 (ix2 b j) = (mk (ix2 (raceOf t b) j)).setWidth 32)

include hx1 hx2 in
theorem validBlk_apply (b : Fin 128) (j : Fin 64) : validBlk x1 x2 (ix2 b j) = bit (valid rk mk (raceOf t b) j) := by
  show FloatOps.sitofp (F := Ideal) .f32 ((IntOp.andi (IntOp.cmpi .ne (shapeCast S128x64 x2 shapeCasts_S128x64_S128x64 (ix2 b j)) 0#32)
    (IntOp.cmpi .sgt (x1 (ix2 b j)) 0#32)).setWidth 32) = _
  rw [shapeCast_self, hx1, hx2, ne_zero_setWidth]
  exact toInt_setWidth_bit _

include hx1 in
theorem aheadTbl_apply (b : Fin 128) (j k : Fin 64) :
    aheadTbl x1 (ix3 b j k) = bit (IntOp.cmpi .slt (rk (ix2 (raceOf t b) j)) (rk (ix2 (raceOf t b) k))) := by
  show FloatOps.sitofp (F := Ideal) .f32 ((IntOp.cmpi .slt
    (broadcastTo S128x64x64 (shapeCast S128x64x1 x1 shapeCasts_S128x64_S128x64x1) broadcasts_S128x64x1_S128x64x64 (ix3 b j k))
    (broadcastTo S128x64x64 (shapeCast S128x1x64 x1 shapeCasts_S128x64_S128x1x64) broadcasts_S128x1x64_S128x64x64 (ix3 b j k))).setWidth 32) = _
  rw [first_apply, second_apply, hx1, hx1]
  exact toInt_setWidth_bit _

include hx0 in
theorem hingeTbl_apply (b : Fin 128) (j k : Fin 64) : hingeTbl x0 (ix3 b j k) = hinge s (raceOf t b) j k := by
  show max (one - (broadcastTo S128x64x64 (shapeCast S128x64x1 x0 shapeCasts_S128x64_S128x64x1) broadcasts_S128x64x1_S128x64x64 (ix3 b j k)
    - broadcastTo S128x64x64 (shapeCast S128x1x64 x0 shapeCasts_S128x64_S128x1x64) broadcasts_S128x1x64_S128x64x64 (ix3 b j k))) zero = _
  rw [first_apply, second_apply, hx0, hx0]
  rfl

include hx1 hx2 in
/-- The pair table at `(b, j, k)`: the ordered pair `(j, k)` of race `128 t + b` counts. -/
theorem pairTbl_apply (b : Fin 128) (j k : Fin 64) : k0_pay6 (F := Ideal) x1 x2 (ix3 b j k) = pair rk mk (raceOf t b) j k := by
  rw [pairTbl_eq]
  show (broadcastTo S128x64x64 (shapeCast S128x64x1 (validBlk x1 x2) shapeCasts_S128x64_S128x64x1) broadcasts_S128x64x1_S128x64x64 (ix3 b j k)
    * broadcastTo S128x64x64 (shapeCast S128x1x64 (validBlk x1 x2) shapeCasts_S128x64_S128x1x64) broadcasts_S128x1x64_S128x64x64 (ix3 b j k))
    * aheadTbl x1 (ix3 b j k) = _
  rw [first_apply, second_apply, validBlk_apply rk mk t x1 x2 hx1 hx2, validBlk_apply rk mk t x1 x2 hx1 hx2,
    aheadTbl_apply rk t x1 hx1, bit_mul, bit_mul]
  rfl

include hx1 hx2 in
theorem count_apply (b : Fin 128) : k0_pay7 (F := Ideal) x1 x2 (ix1 b) = numPairs rk mk (raceOf t b) := by
  rw [count_eq]
  refine (sumPairs_apply _ _ _ _ _ b).trans ?_
  exact Finset.sum_congr rfl fun j _ => Finset.sum_congr rfl fun k _ => pairTbl_apply rk mk t x1 x2 hx1 hx2 b j k

include hx0 hx1 hx2 in
theorem paid_apply (b : Fin 128) : k0_pay8 (F := Ideal) x0 x1 x2 (ix1 b) = paid s rk mk (raceOf t b) := by
  rw [paid_eq]
  refine (sumPairs_apply _ _ _ _ _ b).trans ?_
  refine Finset.sum_congr rfl fun j _ => Finset.sum_congr rfl fun k _ => ?_
  show hingeTbl x0 (ix3 b j k) * k0_pay6 (F := Ideal) x1 x2 (ix3 b j k) = _
  rw [hingeTbl_apply s t x0 hx0, pairTbl_apply rk mk t x1 x2 hx1 hx2]

end AtBlock

/-- "The race has a counted pair", as a 0/1 float, from the race's number of counted pairs. -/
theorem has_apply (v : FVec Ideal S128 .f32) (b : Fin 128) :
    k0_pay1 (F := Ideal) v (ix1 b) = bit (Ideal.cmp .ogt (v (ix1 b)) zero) :=
  toInt_setWidth_bit (Ideal.cmp .ogt (v (ix1 b)) zero)

/-- A one-word `[1, 1]` vector has one position. -/
theorem idx11 (y : S1x1.Idx) : y = ix2 (0 : Fin 1) (0 : Fin 1) :=
  funext fun a => Fin.ext (by
    match a with
    | ⟨0, _⟩ => have h : (y 0).val < 1 := (y 0).isLt; show (y 0).val = 0; omega
    | ⟨1, _⟩ => have h : (y 1).val < 1 := (y 1).isLt; show (y 1).val = 0; omega)

/-- The sum of a `[128]` vector as the body takes it (lane sum of its `[1, 128]` view, read back through a `[1, 1]` word). -/
def blockWord (w : FVec Ideal S128 .f32) : Ideal .f32 :=
  extractAt ![0, 0] (shapeCast S1x1 (multiReduction .add [1] S1 (shapeCast S1x128 w shapeCasts_S128_S1x128) 0x00000000#32
    reduces_S1x128_S1 (.inl rfl) rfl) shapeCasts_S1_S1x1) inpos_S1x1_p0_0

theorem blockWord_eq (w : FVec Ideal S128 .f32) : blockWord w = ∑ b : Fin 128, w (ix1 b) :=
  sumAll_apply w _ _ _ _ _ _

/-- Each race's loss times its "contributes" value, over the block. -/
def shareVec (x0 : Vec Ideal S128x64 .f32) (x1 x2 : Vec Ideal S128x64 .i32) : FVec Ideal S128 .f32 :=
  mulf (divf (k0_pay8 (F := Ideal) x0 x1 x2) (maximumf (k0_pay7 (F := Ideal) x1 x2) (broadcast S128 oneW)))
    (k0_pay1 (k0_pay7 (F := Ideal) x1 x2))

theorem stepTotal_fn (x0 : Vec Ideal S128x64 .f32) (x1 x2 : Vec Ideal S128x64 .i32) (acc : Vec Ideal S1x1 .f32) :
    stepTotal (F := Ideal) x0 x1 x2 acc
      = addf (shapeCast S1x1 acc shapeCasts_S1x1_S1x1) (broadcast S1x1 (blockWord (shareVec x0 x1 x2))) := by
  unfold blockWord shareVec
  show k0_pay2 _ _ _ _ = _
  unfold k0_pay2
  rfl

theorem stepCount_fn (x1 x2 : Vec Ideal S128x64 .i32) (acc : Vec Ideal S1x1 .f32) :
    stepCount (F := Ideal) x1 x2 acc
      = addf (shapeCast S1x1 acc shapeCasts_S1x1_S1x1) (broadcast S1x1 (blockWord (k0_pay1 (k0_pay7 (F := Ideal) x1 x2)))) := by
  unfold blockWord
  show k0_pay3 _ _ = _
  unfold k0_pay3
  rfl

section Steps

variable (s : Races.Idx → EReal) (rk : Races.Idx → BitVec 32) (mk : Races.Idx → BitVec 1) (t : Fin 128)
variable (x0 : Vec Ideal S128x64 .f32) (x1 x2 : Vec Ideal S128x64 .i32)
variable (hx0 : ∀ (b : Fin 128) (j : Fin 64), x0 (ix2 b j) = s (ix2 (raceOf t b) j))
variable (hx1 : ∀ (b : Fin 128) (j : Fin 64), x1 (ix2 b j) = rk (ix2 (raceOf t b) j))
variable (hx2 : ∀ (b : Fin 128) (j : Fin 64), x2 (ix2 b j) = (mk (ix2 (raceOf t b) j)).setWidth 32)

include hx0 hx1 hx2 in
theorem shareVec_apply (b : Fin 128) : shareVec x0 x1 x2 (ix1 b) = share s rk mk (raceOf t b) := by
  unfold shareVec
  rw [mulf_apply, divf_apply, maximumf_apply, broadcast_apply, has_apply, paid_apply s rk mk t x0 x1 x2 hx0 hx1 hx2,
    count_apply rk mk t x1 x2 hx1 hx2]
  rfl

include hx0 hx1 hx2 in
/-- The loss accumulator after block `t`: what it held plus the sum of the block's races' shares. -/
theorem stepTotal_eq (acc : Vec Ideal S1x1 .f32) :
    stepTotal (F := Ideal) x0 x1 x2 acc = fun _ => acc (ix2 0 0) + ∑ b : Fin 128, share s rk mk (raceOf t b) := by
  rw [stepTotal_fn, shapeCast_self]
  funext y
  rw [idx11 y]
  rw [addf_apply, broadcast_apply, blockWord_eq]
  exact congrArg (acc (ix2 0 0) + ·) (Finset.sum_congr rfl fun b _ => shareVec_apply s rk mk t x0 x1 x2 hx0 hx1 hx2 b)

include hx1 hx2 in
/-- The count accumulator after block `t`: what it held plus the number of the block's contributing races. -/
theorem stepCount_eq (acc : Vec Ideal S1x1 .f32) :
    stepCount (F := Ideal) x1 x2 acc = fun _ => acc (ix2 0 0) + ∑ b : Fin 128, has rk mk (raceOf t b) := by
  rw [stepCount_fn, shapeCast_self]
  funext y
  rw [idx11 y]
  rw [addf_apply, broadcast_apply, blockWord_eq]
  refine congrArg (acc (ix2 0 0) + ·) (Finset.sum_congr rfl fun b _ => ?_)
  rw [has_apply, count_apply rk mk t x1 x2 hx1 hx2]
  rfl

end Steps

end Cert.KernelIdeal.Payload

end
-- ==== Proof.Blocks.lean ====
/-
  What the kernel's three input windows hold at grid point `t`: rows `128 t + b` of the array each window stages —
  the scores, the rankings, and the mask widened to a 32-bit word by the one host operation before the kernel.
-/
import proofs.«141919_j3427383902894_2_alg».proof.Proof.Gen.KernelIdeal.Frame
import proofs.«141919_j3427383902894_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.PairRank

variable {F : FTy → Type} [FloatOps F]
variable (m : (ℓ : Loc nD τ sig) → Buf (Elt F) ℓ)

/-- A grid point as a block number below 128. -/
def blockNo (t : Fin cfg0.N) : Fin 128 := ⟨t.val, lt_of_lt_of_eq t.isLt N_0⟩

/-- The three input windows' index maps: block row `t`, block column `0`. -/
theorem index_facts : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0))

/-- The scores' block at point `t` holds, at `(b, j)`, the scores of runner `j` of race `128 t + b`. -/
theorem scores_apply (c : Dev nD) (t : Fin cfg0.N) (b : Fin 128) (j : Fin 64) :
    (iblk m c 0 t : Vec F S128x64 .f32) (ix2 b j) = V m c main_arg0 (ix2 (raceOf (blockNo t) b) j) := by
  have hi := (index_facts t).1
  unfold iblk
  rw [View.read_apply]
  show V m c main_arg0 _ = V m c main_arg0 _
  refine congrArg (V m c main_arg0) (funext fun a => Fin.ext ?_)
  match a with
  | ⟨0, _⟩ => show win0_0.index t 0 * 128 + 1 * b.val = 128 * t.val + b.val; rw [hi.1]; omega
  | ⟨1, _⟩ => show win0_0.index t 1 * 64 + 1 * j.val = j.val; rw [hi.2]; omega

/-- The rankings' block likewise. -/
theorem ranks_apply (c : Dev nD) (t : Fin cfg0.N) (b : Fin 128) (j : Fin 64) :
    (iblk m c 1 t : Vec F S128x64 .i32) (ix2 b j) = V m c main_arg1 (ix2 (raceOf (blockNo t) b) j) := by
  have hi := (index_facts t).2.1
  unfold iblk
  rw [View.read_apply]
  show V m c main_arg1 _ = V m c main_arg1 _
  refine congrArg (V m c main_arg1) (funext fun a => Fin.ext ?_)
  match a with
  | ⟨0, _⟩ => show win0_1.index t 0 * 128 + 1 * b.val = 128 * t.val + b.val; rw [hi.1]; omega
  | ⟨1, _⟩ => show win0_1.index t 1 * 64 + 1 * j.val = j.val; rw [hi.2]; omega

/-- The widened mask's block likewise. -/
theorem mask_apply (c : Dev nD) (t : Fin cfg0.N) (b : Fin 128) (j : Fin 64) :
    (iblk m c 2 t : Vec F S128x64 .i32) (ix2 b j) = V m c main_v0 (ix2 (raceOf (blockNo t) b) j) := by
  have hi := (index_facts t).2.2
  unfold iblk
  rw [View.read_apply]
  show V m c main_v0 _ = V m c main_v0 _
  refine congrArg (V m c main_v0) (funext fun a => Fin.ext ?_)
  match a with
  | ⟨0, _⟩ => show win0_2.index t 0 * 128 + 1 * b.val = 128 * t.val + b.val; rw [hi.1]; omega
  | ⟨1, _⟩ => show win0_2.index t 1 * 64 + 1 * j.val = j.val; rw [hi.2]; omega

/-- The array the third window stages is the mask argument, each bit widened to a 32-bit word. -/
theorem widened_mask (c : Dev nD) :
    (V m c main_v0 : S16384x64.Idx → BitVec 32) = extui 32 (m ((c : Thread nD τ).loc main_arg2)) natLt_1_32 := by
  show StableHlo.after hostOps0 (fun b => m (c, b)) (Proc.devRef .tc main_v0) = _
  after_results

end Cert.KernelIdeal.Blocks

end
-- ==== Proof.Accum.lean ====
/-
  The two accumulators across the grid, and the two one-word result arrays.

  Block `t` adds to the loss accumulator the sum of the shares of races `128 t … 128 t + 127`, and to the count
  accumulator the number of those races that contribute; the first block starts both from the zero word. By induction
  on the grid point the accumulators hold the running sums over the blocks so far; after the last block, the sums over
  all 128 blocks, which — a sum over 16384 races taken block by block — are the specification's total and count. The
  last grid point alone writes the accumulators back, each to its whole `[1, 1]` array.
-/
import proofs.«141919_j3427383902894_2_alg».proof.Proof.Gen.KernelIdeal.Frame
import proofs.«141919_j3427383902894_2_alg».proof.Proof.Pieces
import proofs.«141919_j3427383902894_2_alg».proof.Proof.Payload
import proofs.«141919_j3427383902894_2_alg».proof.Proof.Blocks
import proofs.«141919_j3427383902894_2_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.PairRank Cert.KernelIdeal.Pieces Cert.KernelIdeal.Payload Cert.KernelIdeal.Blocks

variable (m : (ℓ : Loc nD τ sig) → Buf (Elt Ideal) ℓ)

/-- The three arguments as the program is launched with them. -/
abbrev scores (c : Dev nD) : Races.Idx → EReal := m ((c : Thread nD τ).loc main_arg0)
abbrev ranks (c : Dev nD) : Races.Idx → BitVec 32 := m ((c : Thread nD τ).loc main_arg1)
abbrev mask (c : Dev nD) : Races.Idx → BitVec 1 := m ((c : Thread nD τ).loc main_arg2)

/-! ## The input blocks at a grid point -/

theorem blk_scores (c : Dev nD) (t : Fin cfg0.N) (b : Fin 128) (j : Fin 64) :
    (iblk m c 0 t : Vec Ideal S128x64 .f32) (ix2 b j) = scores m c (ix2 (raceOf (blockNo t) b) j) :=
  (scores_apply m c t b j).trans (congrFun (V_main_arg0 m c) _)

theorem blk_ranks (c : Dev nD) (t : Fin cfg0.N) (b : Fin 128) (j : Fin 64) :
    (iblk m c 1 t : Vec Ideal S128x64 .i32) (ix2 b j) = ranks m c (ix2 (raceOf (blockNo t) b) j) :=
  (ranks_apply m c t b j).trans (congrFun (V_main_arg1 m c) _)

theorem blk_mask (c : Dev nD) (t : Fin cfg0.N) (b : Fin 128) (j : Fin 64) :
    (iblk m c 2 t : Vec Ideal S128x64 .i32) (ix2 b j) = (mask m c (ix2 (raceOf (blockNo t) b) j)).setWidth 32 :=
  (mask_apply m c t b j).trans (congrFun (widened_mask m c) _)

/-! ## One block's two sums -/

/-- The sum of the shares of block `t`'s races, and the number of them that contribute. -/
def blockTotal (c : Dev nD) (t : Fin 128) : EReal := ∑ b : Fin 128, share (scores m c) (ranks m c) (mask m c) (raceOf t b)
def blockCount (c : Dev nD) (t : Fin 128) : EReal := ∑ b : Fin 128, has (ranks m c) (mask m c) (raceOf t b)

theorem point_total (c : Dev nD) (t : Fin cfg0.N) (acc : Vec Ideal S1x1 .f32) :
    stepTotal (F := Ideal) (iblk m c 0 t) (iblk m c 1 t) (iblk m c 2 t) acc = fun _ => acc (ix2 0 0) + blockTotal m c (blockNo t) :=
  stepTotal_eq (scores m c) (ranks m c) (mask m c) (blockNo t) (iblk m c 0 t) (iblk m c 1 t) (iblk m c 2 t)
    (blk_scores m c t) (blk_ranks m c t) (blk_mask m c t) acc

theorem point_count (c : Dev nD) (t : Fin cfg0.N) (acc : Vec Ideal S1x1 .f32) :
    stepCount (F := Ideal) (iblk m c 1 t) (iblk m c 2 t) acc = fun _ => acc (ix2 0 0) + blockCount m c (blockNo t) :=
  stepCount_eq (ranks m c) (mask m c) (blockNo t) (iblk m c 1 t) (iblk m c 2 t) (blk_ranks m c t) (blk_mask m c t) acc

/-! ## The running sums -/

/-- Block `i`'s sums, for every natural `i` (zero past the grid). -/
def bt (c : Dev nD) (i : ℕ) : EReal := if h : i < 128 then blockTotal m c ⟨i, h⟩ else 0
def bc (c : Dev nD) (i : ℕ) : EReal := if h : i < 128 then blockCount m c ⟨i, h⟩ else 0

theorem bt_at (c : Dev nD) (t : Fin cfg0.N) : blockTotal m c (blockNo t) = bt m c t.val := by
  have h : t.val < 128 := (blockNo t).isLt
  unfold bt
  rw [dif_pos h]
  rfl
theorem bc_at (c : Dev nD) (t : Fin cfg0.N) : blockCount m c (blockNo t) = bc m c t.val := by
  have h : t.val < 128 := (blockNo t).isLt
  unfold bc
  rw [dif_pos h]
  rfl

/-- A grid point's effect on the two staging words, whatever they held: the first point … -/
theorem first_pt3 (c : Dev nD) (t : Fin cfg0.N) (hc : cond0_0 (grid0.coords t)) :
    out0_A_3 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) (iblk m c 2 t) = fun _ => zero + bt m c t.val :=
  (first_total (F := Ideal) c (grid0.coords t) (ms0_0 t) (hs0_0 t) (ms0_1 t) (hs0_1 t) (ms0_2 t) (hs0_2 t) (ms0_3 t) (hs0_3 t) (ms0_4 t) (hs0_4 t) hc (iblk m c 0 t) (iblk m c 1 t) (iblk m c 2 t)).trans
    ((point_total m c t (k0_pay4 (F := Ideal))).trans (funext fun _ => congrArg (fun x => zero + x) (bt_at m c t)))

theorem first_pt4 (c : Dev nD) (t : Fin cfg0.N) (hc : cond0_0 (grid0.coords t)) :
    out0_A_4 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) (iblk m c 2 t) = fun _ => zero + bc m c t.val :=
  (first_count (F := Ideal) c (grid0.coords t) (ms0_0 t) (hs0_0 t) (ms0_1 t) (hs0_1 t) (ms0_2 t) (hs0_2 t) (ms0_3 t) (hs0_3 t) (ms0_4 t) (hs0_4 t) hc (iblk m c 0 t) (iblk m c 1 t) (iblk m c 2 t)).trans
    ((point_count m c t (k0_pay5 (F := Ideal))).trans (funext fun _ => congrArg (fun x => zero + x) (bc_at m c t)))

/-- … and every later one. -/
theorem later_pt3 (c : Dev nD) (t : Fin cfg0.N) (hc : ¬cond0_0 (grid0.coords t)) (xo3 xo4 : Vec Ideal S1x1 .f32) :
    out0_B_3 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) (iblk m c 2 t) xo3 xo4 = fun _ => xo3 (ix2 0 0) + bt m c t.val :=
  (later_total (F := Ideal) c (grid0.coords t) (ms0_0 t) (hs0_0 t) (ms0_1 t) (hs0_1 t) (ms0_2 t) (hs0_2 t) (ms0_3 t) (hs0_3 t) (ms0_4 t) (hs0_4 t) hc (iblk m c 0 t) (iblk m c 1 t) (iblk m c 2 t) xo3 xo4).trans
    ((point_total m c t xo3).trans (funext fun _ => congrArg (fun x => xo3 (ix2 0 0) + x) (bt_at m c t)))

theorem later_pt4 (c : Dev nD) (t : Fin cfg0.N) (hc : ¬cond0_0 (grid0.coords t)) (xo3 xo4 : Vec Ideal S1x1 .f32) :
    out0_B_4 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) (iblk m c 2 t) xo3 xo4 = fun _ => xo4 (ix2 0 0) + bc m c t.val :=
  (later_count (F := Ideal) c (grid0.coords t) (ms0_0 t) (hs0_0 t) (ms0_1 t) (hs0_1 t) (ms0_2 t) (hs0_2 t) (ms0_3 t) (hs0_3 t) (ms0_4 t) (hs0_4 t) hc (iblk m c 0 t) (iblk m c 1 t) (iblk m c 2 t) xo3 xo4).trans
    ((point_count m c t xo4).trans (funext fun _ => congrArg (fun x => xo4 (ix2 0 0) + x) (bc_at m c t)))

/-- The accumulators after grid point `n`: the zero word plus the first block's sum, then one block's sum more per point. -/
def accT (c : Dev nD) : ℕ → EReal
  | 0 => zero + bt m c 0
  | n + 1 => accT c n + bt m c (n + 1)
def accC (c : Dev nD) : ℕ → EReal
  | 0 => zero + bc m c 0
  | n + 1 => accC c n + bc m c (n + 1)

/-- What the two staging words hold after grid point `n`: the running sums — by induction on the point. -/
theorem outsAt_eq (c : Dev nD) : ∀ (n : ℕ) (h : n < cfg0.N), outsAt0 m c n h = ((fun _ => accT m c n), (fun _ => accC m c n))
  | 0, h => by
    rw [outsAt0_A m c ⟨0, h⟩ rfl, first_pt3 m c ⟨0, h⟩, first_pt4 m c ⟨0, h⟩]
    rfl
  | n + 1, h => by
    have hN : cfg0.N = 128 := N_0
    have hB : ¬(⟨n + 1, h⟩ : Fin cfg0.N).val % 128 = 0 := by dsimp only; omega
    have ih := outsAt_eq c n (Nat.lt_of_succ_lt h)
    rw [outsAt0_B m c ⟨n + 1, h⟩ hB, later_pt3 m c ⟨n + 1, h⟩, later_pt4 m c ⟨n + 1, h⟩]
    show ((fun _ => (outsAt0 m c n _).1 (ix2 0 0) + bt m c (n + 1)), (fun _ => (outsAt0 m c n _).2 (ix2 0 0) + bc m c (n + 1))) = _
    rw [ih]
    rfl

theorem accT_eq (c : Dev nD) : ∀ n, accT m c n = ∑ i ∈ Finset.range (n + 1), bt m c i
  | 0 => by
    show zero + bt m c 0 = _
    rw [Finset.sum_range_one, show (zero : EReal) = 0 from Ideal.ofBits_zero_f32, zero_add]
  | n + 1 => by
    show accT m c n + bt m c (n + 1) = _
    rw [accT_eq c n, Finset.sum_range_succ _ (n + 1)]

theorem accC_eq (c : Dev nD) : ∀ n, accC m c n = ∑ i ∈ Finset.range (n + 1), bc m c i
  | 0 => by
    show zero + bc m c 0 = _
    rw [Finset.sum_range_one, show (zero : EReal) = 0 from Ideal.ofBits_zero_f32, zero_add]
  | n + 1 => by
    show accC m c n + bc m c (n + 1) = _
    rw [accC_eq c n, Finset.sum_range_succ _ (n + 1)]

/-- After the last block the loss accumulator holds the total over all races, -/
theorem accT_last (c : Dev nD) : accT m c 127 = PairRank.total (scores m c) (ranks m c) (mask m c) := by
  have h : accT m c 127 = ∑ i ∈ Finset.range 128, bt m c i := accT_eq m c 127
  rw [h, Finset.sum_range (fun i => bt m c i)]
  unfold PairRank.total
  rw [sum_races]
  exact Finset.sum_congr rfl fun t _ => dif_pos t.isLt

/-- and the count accumulator the number of contributing races. -/
theorem accC_last (c : Dev nD) : accC m c 127 = PairRank.count (ranks m c) (mask m c) := by
  have h : accC m c 127 = ∑ i ∈ Finset.range 128, bc m c i := accC_eq m c 127
  rw [h, Finset.sum_range (fun i => bc m c i)]
  unfold PairRank.count
  rw [sum_races]
  exact Finset.sum_congr rfl fun t _ => dif_pos t.isLt

/-! ## The two result arrays -/

/-- The last grid point. -/
def lastPt : Fin cfg0.N := ⟨127, by rw [show cfg0.N = 128 from N_0]; decide⟩

theorem flushed_total (c : Dev nD) (t : Fin cfg0.N) (hf : (cfg0.win 3).flush t = true) :
    (dats m 0 c).flushed 3 t = ((cfg0.win 3).blk t).view.read (Elt Ideal) (fun _ => accT m c 127) := by
  have hN : cfg0.N = 128 := N_0
  have h127 : t.val = 127 := by have := (flush0_3 t).mp hf; have := t.isLt; omega
  show (cfg0.win 3).cut (grid0.coords t) ((dats m 0 c).after 3 t) = _
  rw [after0_3, outsAt_eq m c t.val t.isLt, h127]
  rfl

theorem flushed_count (c : Dev nD) (t : Fin cfg0.N) (hf : (cfg0.win 4).flush t = true) :
    (dats m 0 c).flushed 4 t = ((cfg0.win 4).blk t).view.read (Elt Ideal) (fun _ => accC m c 127) := by
  have hN : cfg0.N = 128 := N_0
  have h127 : t.val = 127 := by have := (flush0_4 t).mp hf; have := t.isLt; omega
  show (cfg0.win 4).cut (grid0.coords t) ((dats m 0 c).after 4 t) = _
  rw [after0_4, outsAt_eq m c t.val t.isLt, h127]
  rfl

/-- The loss array ends holding the running total after the last block (its one block is the whole array). -/
theorem final_total (c : Dev nD) : (dats m 0 c).arrAt 3 cfg0.N = fun _ => accT m c 127 :=
  (dats m 0 c).arrAt_eq_of_cover 3 _ (flushed_total m c) fun i =>
    ⟨lastPt, (flush0_3 lastPt).mpr rfl, by
      show i ∈ ((View.whole main_v1_0).slice (win0_3.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_3.index lastPt 0 * win0_3.size 0 ≤ (i 0 : Nat) ∧ (i 0 : Nat) < win0_3.index lastPt 0 * win0_3.size 0 + win0_3.xsize (grid0.coords lastPt) 0
                  rw [show win0_3.index lastPt 0 * win0_3.size 0 = 0 from by decide +kernel, show win0_3.xsize (grid0.coords lastPt) 0 = 1 from by decide +kernel]; omega
      | ⟨1, _⟩ => show win0_3.index lastPt 1 * win0_3.size 1 ≤ (i 1 : Nat) ∧ (i 1 : Nat) < win0_3.index lastPt 1 * win0_3.size 1 + win0_3.xsize (grid0.coords lastPt) 1
                  rw [show win0_3.index lastPt 1 * win0_3.size 1 = 0 from by decide +kernel, show win0_3.xsize (grid0.coords lastPt) 1 = 1 from by decide +kernel]; omega⟩

theorem final_count (c : Dev nD) : (dats m 0 c).arrAt 4 cfg0.N = fun _ => accC m c 127 :=
  (dats m 0 c).arrAt_eq_of_cover 4 _ (flushed_count m c) fun i =>
    ⟨lastPt, (flush0_4 lastPt).mpr rfl, by
      show i ∈ ((View.whole main_v1_1).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_4.index lastPt 0 * win0_4.size 0 ≤ (i 0 : Nat) ∧ (i 0 : Nat) < win0_4.index lastPt 0 * win0_4.size 0 + win0_4.xsize (grid0.coords lastPt) 0
                  rw [show win0_4.index lastPt 0 * win0_4.size 0 = 0 from by decide +kernel, show win0_4.xsize (grid0.coords lastPt) 0 = 1 from by decide +kernel]; omega
      | ⟨1, _⟩ => show win0_4.index lastPt 1 * win0_4.size 1 ≤ (i 1 : Nat) ∧ (i 1 : Nat) < win0_4.index lastPt 1 * win0_4.size 1 + win0_4.xsize (grid0.coords lastPt) 1
                  rw [show win0_4.index lastPt 1 * win0_4.size 1 = 0 from by decide +kernel, show win0_4.xsize (grid0.coords lastPt) 1 = 1 from by decide +kernel]; omega⟩

end Cert.KernelIdeal.Accum

end
-- ==== Proof.Tail.lean ====
/-
  The kernel program's host operations after its region, read off the frame run.

  After the region the program reshapes the region's two `[1, 1]` results to scalars — the total `T` of the races'
  losses and the number `N` of contributing races —, and returns `T / max N 1` if `N > 0`, else `0`. Here: those
  operations as one function of the two result arrays; its value where the arrays are constant; and the frame
  run restated for the result buffer and the three arguments.
-/
import proofs.«141919_j3427383902894_2_alg».proof.Proof.Gen.KernelIdeal.Frame
import proofs.«141919_j3427383902894_2_alg».proof.Proof.Spec
import Idealize.ShloMosaic.Lib.Pipeline.Value
import Idealize.ShloMosaic.Lib.StableHlo.Run
import Idealize.ShloMosaic.Lib.Tactic

noncomputable section

namespace Cert.KernelIdeal.Tail

open Cert.KernelIdeal Cert.KernelIdeal.Gen Cert.PairRank
open Idealize.ShloMosaic Idealize.ShloMosaic.TcCoe Idealize.SL.Sem Idealize.ShloMosaic.StableHlo

/-! ## The operations after the region as a function -/

/-- The operations after the region, of the region's two result arrays `t` (the total) and `n` (the count). -/
def tailFn (t n : (⟨S1x1, .f32⟩ : BufTy).Contents (Elt Ideal)) : (⟨S_, .f32⟩ : BufTy).Contents (Elt Ideal) :=
  select
    (cmpf .ogt (shapeCast S_ n shapeCasts_S1x1_S_ : (⟨S_, .f32⟩ : BufTy).Contents (Elt Ideal)) (constant (F := Ideal) S_ .f32 0x00000000#32))
    (Host.divf (shapeCast S_ t shapeCasts_S1x1_S_ : (⟨S_, .f32⟩ : BufTy).Contents (Elt Ideal))
      (maximumf (shapeCast S_ n shapeCasts_S1x1_S_ : (⟨S_, .f32⟩ : BufTy).Contents (Elt Ideal)) (constant (F := Ideal) S_ .f32 0x3F800000#32)))
    (constant (F := Ideal) S_ .f32 0x00000000#32)

/-- At the ideal values a float comparison is the extended reals'. -/
theorem cmpf_at_ideal (p : CmpFPredicate) (x y : EReal) :
    FloatOps.cmpf (F := Ideal) (φ := .f32) p x y = Ideal.cmp p x y := rfl

/-- Where the two arrays are constant, at `T` and `N`: `T / max N 1` if `N > 0`, else `0`. -/
theorem tailFn_const (T N : EReal) :
    tailFn (fun _ => T) (fun _ => N) = fun _ => Scalar.select (Ideal.cmp .ogt N zero) (Ideal.div T (max N one)) zero := by
  funext i
  show Scalar.select (FloatOps.cmpf (F := Ideal) (φ := .f32) .ogt N (Ideal.ofBits .f32 0x00000000#32))
      (FloatOps.hostDivf (F := Ideal) (φ := .f32) T (max N (Ideal.ofBits .f32 0x3F800000#32)))
      (Ideal.ofBits .f32 0x00000000#32) = _
  rw [cmpf_at_ideal, Ideal.hostDivf_def]

/-! ## The tail of the frame run -/

section Run

variable (m : (ℓ : Loc nD τ sig) → Buf (Elt Ideal) ℓ) (ρ : Dev nD → PrngReg)

/-- Core `c`'s buffer contents at the region's exit: the region's arrays as the proof data compute them, every other
    buffer as the region found it. -/
abbrev exitVal (c : Dev nD) : Valuation τ sig (Elt Ideal) :=
  Pipeline.withArrays (cfgs 0).spec c (V0 m c) fun w => (dats m 0 c).arrAt w (cfgs 0).N

/-- The result buffer after the tail: `tailFn` of the two result arrays at the region's exit. -/
theorem after_tail (c : Dev nD) :
    Pipeline.afterTail₀ cfgs (dats m) 0 (V0 m) [hostOps1, hostOps1_1] c main_v7
      = tailFn (exitVal m c (Proc.devRef .tc main_v1_0)) (exitVal m c (Proc.devRef .tc main_v1_1)) := by
  unfold Pipeline.afterTail₀
  simp only [hostOps1, hostOps1_1, List.flatten_cons, List.flatten_nil, List.append_nil, List.cons_append, List.nil_append]
  after_results
  rfl

/-- At the region's exit the first result array is what the proof data compute for it … -/
theorem exit_total (c : Dev nD) :
    exitVal m c (Proc.devRef .tc main_v1_0) = (dats m 0 c).arrAt 3 cfg0.N :=
  Pipeline.withArrays_arr spec0 launch0.win.arr_inj c _ _ 3

/-- … and so is the second. -/
theorem exit_count (c : Dev nD) :
    exitVal m c (Proc.devRef .tc main_v1_1) = (dats m 0 c).arrAt 4 cfg0.N :=
  Pipeline.withArrays_arr spec0 launch0.win.arr_inj c _ _ 4

/-- THE TAIL: where the region leaves its two result arrays constant, at `T` and `N`, the result buffer ends at
    `T / max N 1` if `N > 0`, else `0`. -/
theorem tail_eq (c : Dev nD) (T N : EReal)
    (h3 : (dats m 0 c).arrAt 3 cfg0.N = fun _ => T) (h4 : (dats m 0 c).arrAt 4 cfg0.N = fun _ => N) :
    Pipeline.afterTail₀ cfgs (dats m) 0 (V0 m) [hostOps1, hostOps1_1] c main_v7
      = fun _ => Scalar.select (Ideal.cmp .ogt N zero) (Ideal.div T (max N one)) zero :=
  (after_tail m c).trans
    ((congrArg₂ tailFn ((exit_total m c).trans h3) ((exit_count m c).trans h4)).trans (tailFn_const T N))

/-- THE RUN: from any memory with zero counters every weakly fair execution of @main terminates with the result
    buffer at what the operations after the region compute from the region's exit contents, the three arguments
    unchanged. -/
theorem run : θ_run defs (onTc (τ := τ) (main (F := Ideal))) ⟨m, fun _ => 0, ρ⟩ fun r => ∀ c : Dev nD,
      r.2.mem ((c.tc : Thread nD τ).loc main_v7)
        = Pipeline.afterTail₀ cfgs (dats m) 0 (V0 m) [hostOps1, hostOps1_1] c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).2 main_v7 (Pipeline.mem_restRefs_of main_v7 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Run

end Cert.KernelIdeal.Tail

end
-- ==== Proof.RefRun.lean ====
/-
  The reference program's run. Its @main is a list of 52 host operations (the called select stands in its call's
  place); run in order from the launch memory, every weakly fair execution terminates with the result buffer at
  the operations' composed term of the three argument arrays, and the arguments unchanged.

  The composed term is written out stage by stage, one definition per distinct value of the program (the equal
  scalar constants `0.0` and `1.0` share one definition each), every stage a function of the arguments it depends
  on, for any float values `F`: `refTerm s rk mk` is the last stage.
-/
import proofs.«141919_j3427383902894_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The scalar `0.0`. -/
def zeroS : (⟨S_, .f32⟩ : BufTy).Contents (Elt F) :=
  constant S_ .f32 0x00000000#32

/-- The scalar `1.0`. -/
def oneS : (⟨S_, .f32⟩ : BufTy).Contents (Elt F) :=
  constant S_ .f32 0x3F800000#32

/-- The integer scalar `0`. -/
def zeroI : (⟨S_, .i32⟩ : BufTy).Contents (Elt F) :=
  constantI S_ 32 0#32

/-- `0` at every runner. -/
def zeroGrid : (⟨S16384x64, .i32⟩ : BufTy).Contents (Elt F) :=
  broadcastInDim S16384x64 ![] bcast_S_S16384x64 (zeroI (F := F))

/-- The runner's ranking is positive. -/
def posRank (rk : (⟨S16384x64, .i32⟩ : BufTy).Contents (Elt F)) : (⟨S16384x64, .i1⟩ : BufTy).Contents (Elt F) :=
  cmpi .sgt rk (zeroGrid (F := F))

/-- The runner is present and positively ranked. -/
def okRunner (rk : (⟨S16384x64, .i32⟩ : BufTy).Contents (Elt F)) (mk : (⟨S16384x64, .i1⟩ : BufTy).Contents (Elt F)) : (⟨S16384x64, .i1⟩ : BufTy).Contents (Elt F) :=
  andi mk (posRank (F := F) rk)

/-- `okRunner` as a column `[r, j, 0]`. -/
def okCol (rk : (⟨S16384x64, .i32⟩ : BufTy).Contents (Elt F)) (mk : (⟨S16384x64, .i1⟩ : BufTy).Contents (Elt F)) : (⟨S16384x64x1, .i1⟩ : BufTy).Contents (Elt F) :=
  broadcastInDim S16384x64x1 ![0, 1] bcast_S16384x64_S16384x64x1_0_1 (okRunner (F := F) rk mk)

/-- `okRunner` as a row `[r, 0, k]`. -/
def okRow (rk : (⟨S16384x64, .i32⟩ : BufTy).Contents (Elt F)) (mk : (⟨S16384x64, .i1⟩ : BufTy).Contents (Elt F)) : (⟨S16384x1x64, .i1⟩ : BufTy).Contents (Elt F) :=
  broadcastInDim S16384x1x64 ![0, 2] bcast_S16384x64_S16384x1x64_0_2 (okRunner (F := F) rk mk)

/-- At `[r, j, k]`: runner `j` is valid. -/
def okFst (rk : (⟨S16384x64, .i32⟩ : BufTy).Contents (Elt F)) (mk : (⟨S16384x64, .i1⟩ : BufTy).Contents (Elt F)) : (⟨S16384x64x64, .i1⟩ : BufTy).Contents (Elt F) :=
  broadcastInDim S16384x64x64 ![0, 1, 2] bcast_S16384x64x1_S16384x64x64_0_1_2 (okCol (F := F) rk mk)

/-- At `[r, j, k]`: runner `k` is valid. -/
def okSnd (rk : (⟨S16384x64, .i32⟩ : BufTy).Contents (Elt F)) (mk : (⟨S16384x64, .i1⟩ : BufTy).Contents (Elt F)) : (⟨S16384x64x64, .i1⟩ : BufTy).Contents (Elt F) :=
  broadcastInDim S16384x64x64 ![0, 1, 2] bcast_S16384x1x64_S16384x64x64_0_1_2 (okRow (F := F) rk mk)

/-- Both runners of the pair are valid. -/
def okBoth (rk : (⟨S16384x64, .i32⟩ : BufTy).Contents (Elt F)) (mk : (⟨S16384x64, .i1⟩ : BufTy).Contents (Elt F)) : (⟨S16384x64x64, .i1⟩ : BufTy).Contents (Elt F) :=
  andi (okFst (F := F) rk mk) (okSnd (F := F) rk mk)

/-- The rankings as a column. -/
def rkCol (rk : (⟨S16384x64, .i32⟩ : BufTy).Contents (Elt F)) : (⟨S16384x64x1, .i32⟩ : BufTy).Contents (Elt F) :=
  broadcastInDim S16384x64x1 ![0, 1] bcast_S16384x64_S16384x64x1_0_1 rk

/-- The rankings as a row. -/
def rkRow (rk : (⟨S16384x64, .i32⟩ : BufTy).Contents (Elt F)) : (⟨S16384x1x64, .i32⟩ : BufTy).Contents (Elt F) :=
  broadcastInDim S16384x1x64 ![0, 2] bcast_S16384x64_S16384x1x64_0_2 rk

/-- At `[r, j, k]`: the ranking of `j`. -/
def rkFst (rk : (⟨S16384x64, .i32⟩ : BufTy).Contents (Elt F)) : (⟨S16384x64x64, .i32⟩ : BufTy).Contents (Elt F) :=
  broadcastInDim S16384x64x64 ![0, 1, 2] bcast_S16384x64x1_S16384x64x64_0_1_2 (rkCol (F := F) rk)

/-- At `[r, j, k]`: the ranking of `k`. -/
def rkSnd (rk : (⟨S16384x64, .i32⟩ : BufTy).Contents (Elt F)) : (⟨S16384x64x64, .i32⟩ : BufTy).Contents (Elt F) :=
  broadcastInDim S16384x64x64 ![0, 1, 2] bcast_S16384x1x64_S16384x64x64_0_1_2 (rkRow (F := F) rk)

/-- `j` is ranked strictly ahead of `k`. -/
def ahead (rk : (⟨S16384x64, .i32⟩ : BufTy).Contents (Elt F)) : (⟨S16384x64x64, .i1⟩ : BufTy).Contents (Elt F) :=
  cmpi .slt (rkFst (F := F) rk) (rkSnd (F := F) rk)

/-- The pair counts. -/
def counted (rk : (⟨S16384x64, .i32⟩ : BufTy).Contents (Elt F)) (mk : (⟨S16384x64, .i1⟩ : BufTy).Contents (Elt F)) : (⟨S16384x64x64, .i1⟩ : BufTy).Contents (Elt F) :=
  andi (okBoth (F := F) rk mk) (ahead (F := F) rk)

/-- The scores as a column. -/
def scCol (s : (⟨S16384x64, .f32⟩ : BufTy).Contents (Elt F)) : (⟨S16384x64x1, .f32⟩ : BufTy).Contents (Elt F) :=
  broadcastInDim S16384x64x1 ![0, 1] bcast_S16384x64_S16384x64x1_0_1 s

/-- The scores as a row. -/
def scRow (s : (⟨S16384x64, .f32⟩ : BufTy).Contents (Elt F)) : (⟨S16384x1x64, .f32⟩ : BufTy).Contents (Elt F) :=
  broadcastInDim S16384x1x64 ![0, 2] bcast_S16384x64_S16384x1x64_0_2 s

/-- At `[r, j, k]`: the score of `j`. -/
def scFst (s : (⟨S16384x64, .f32⟩ : BufTy).Contents (Elt F)) : (⟨S16384x64x64, .f32⟩ : BufTy).Contents (Elt F) :=
  broadcastInDim S16384x64x64 ![0, 1, 2] bcast_S16384x64x1_S16384x64x64_0_1_2 (scCol (F := F) s)

/-- At `[r, j, k]`: the score of `k`. -/
def scSnd (s : (⟨S16384x64, .f32⟩ : BufTy).Contents (Elt F)) : (⟨S16384x64x64, .f32⟩ : BufTy).Contents (Elt F) :=
  broadcastInDim S16384x64x64 ![0, 1, 2] bcast_S16384x1x64_S16384x64x64_0_1_2 (scRow (F := F) s)

/-- `s_j - s_k`. -/
def gap (s : (⟨S16384x64, .f32⟩ : BufTy).Contents (Elt F)) : (⟨S16384x64x64, .f32⟩ : BufTy).Contents (Elt F) :=
  subf (scFst (F := F) s) (scSnd (F := F) s)

/-- `1.0` at every pair. -/
def oneCube : (⟨S16384x64x64, .f32⟩ : BufTy).Contents (Elt F) :=
  broadcastInDim S16384x64x64 ![] bcast_S_S16384x64x64 (oneS (F := F))

/-- `1 - (s_j - s_k)`. -/
def margin (s : (⟨S16384x64, .f32⟩ : BufTy).Contents (Elt F)) : (⟨S16384x64x64, .f32⟩ : BufTy).Contents (Elt F) :=
  subf (oneCube (F := F)) (gap (F := F) s)

/-- `0.0` at every pair. -/
def zeroCube : (⟨S16384x64x64, .f32⟩ : BufTy).Contents (Elt F) :=
  broadcastInDim S16384x64x64 ![] bcast_S_S16384x64x64 (zeroS (F := F))

/-- The hinge `max (1 - (s_j - s_k)) 0`. -/
def hingeCube (s : (⟨S16384x64, .f32⟩ : BufTy).Contents (Elt F)) : (⟨S16384x64x64, .f32⟩ : BufTy).Contents (Elt F) :=
  maximumf (margin (F := F) s) (zeroCube (F := F))

/-- The pair counts, as the number `0` or `1`. -/
def countedF (rk : (⟨S16384x64, .i32⟩ : BufTy).Contents (Elt F)) (mk : (⟨S16384x64, .i1⟩ : BufTy).Contents (Elt F)) : (⟨S16384x64x64, .f32⟩ : BufTy).Contents (Elt F) :=
  uitofp .f32 (counted (F := F) rk mk)

/-- Per race: the number of counted pairs. -/
def nPairs (rk : (⟨S16384x64, .i32⟩ : BufTy).Contents (Elt F)) (mk : (⟨S16384x64, .i1⟩ : BufTy).Contents (Elt F)) : (⟨S16384, .f32⟩ : BufTy).Contents (Elt F) :=
  Host.reduceAdd (countedF (F := F) rk mk) (zeroS (F := F)) reducesTo_S16384x64x64_S16384_d1_2 h_S_

/-- What each pair pays. -/
def paidCube (s : (⟨S16384x64, .f32⟩ : BufTy).Contents (Elt F)) (rk : (⟨S16384x64, .i32⟩ : BufTy).Contents (Elt F)) (mk : (⟨S16384x64, .i1⟩ : BufTy).Contents (Elt F)) : (⟨S16384x64x64, .f32⟩ : BufTy).Contents (Elt F) :=
  mulf (hingeCube (F := F) s) (countedF (F := F) rk mk)

/-- Per race: what its counted pairs pay in all. -/
def paidRace (s : (⟨S16384x64, .f32⟩ : BufTy).Contents (Elt F)) (rk : (⟨S16384x64, .i32⟩ : BufTy).Contents (Elt F)) (mk : (⟨S16384x64, .i1⟩ : BufTy).Contents (Elt F)) : (⟨S16384, .f32⟩ : BufTy).Contents (Elt F) :=
  Host.reduceAdd (paidCube (F := F) s rk mk) (zeroS (F := F)) reducesTo_S16384x64x64_S16384_d1_2 h_S_

/-- `1.0` at every race. -/
def oneVec : (⟨S16384, .f32⟩ : BufTy).Contents (Elt F) :=
  broadcastInDim S16384 ![] bcast_S_S16384 (oneS (F := F))

/-- Per race: the number of counted pairs, at least one. -/
def denom (rk : (⟨S16384x64, .i32⟩ : BufTy).Contents (Elt F)) (mk : (⟨S16384x64, .i1⟩ : BufTy).Contents (Elt F)) : (⟨S16384, .f32⟩ : BufTy).Contents (Elt F) :=
  maximumf (nPairs (F := F) rk mk) (oneVec (F := F))

/-- Per race: the loss. -/
def lossRace (s : (⟨S16384x64, .f32⟩ : BufTy).Contents (Elt F)) (rk : (⟨S16384x64, .i32⟩ : BufTy).Contents (Elt F)) (mk : (⟨S16384x64, .i1⟩ : BufTy).Contents (Elt F)) : (⟨S16384, .f32⟩ : BufTy).Contents (Elt F) :=
  Host.divf (paidRace (F := F) s rk mk) (denom (F := F) rk mk)

/-- `0.0` at every race. -/
def zeroVec : (⟨S16384, .f32⟩ : BufTy).Contents (Elt F) :=
  broadcastInDim S16384 ![] bcast_S_S16384 (zeroS (F := F))

/-- The race has a counted pair. -/
def hasB (rk : (⟨S16384x64, .i32⟩ : BufTy).Contents (Elt F)) (mk : (⟨S16384x64, .i1⟩ : BufTy).Contents (Elt F)) : (⟨S16384, .i1⟩ : BufTy).Contents (Elt F) :=
  cmpf .ogt (nPairs (F := F) rk mk) (zeroVec (F := F))

/-- The race has a counted pair, as `0` or `1`. -/
def hasF (rk : (⟨S16384x64, .i32⟩ : BufTy).Contents (Elt F)) (mk : (⟨S16384x64, .i1⟩ : BufTy).Contents (Elt F)) : (⟨S16384, .f32⟩ : BufTy).Contents (Elt F) :=
  uitofp .f32 (hasB (F := F) rk mk)

/-- The number of contributing races. -/
def nRaces (rk : (⟨S16384x64, .i32⟩ : BufTy).Contents (Elt F)) (mk : (⟨S16384x64, .i1⟩ : BufTy).Contents (Elt F)) : (⟨S_, .f32⟩ : BufTy).Contents (Elt F) :=
  Host.reduceAdd (hasF (F := F) rk mk) (zeroS (F := F)) reducesTo_S16384_S_d0 h_S_

/-- Per race: the loss if it contributes. -/
def shareRace (s : (⟨S16384x64, .f32⟩ : BufTy).Contents (Elt F)) (rk : (⟨S16384x64, .i32⟩ : BufTy).Contents (Elt F)) (mk : (⟨S16384x64, .i1⟩ : BufTy).Contents (Elt F)) : (⟨S16384, .f32⟩ : BufTy).Contents (Elt F) :=
  mulf (lossRace (F := F) s rk mk) (hasF (F := F) rk mk)

/-- The sum of the contributing races' losses. -/
def sumLoss (s : (⟨S16384x64, .f32⟩ : BufTy).Contents (Elt F)) (rk : (⟨S16384x64, .i32⟩ : BufTy).Contents (Elt F)) (mk : (⟨S16384x64, .i1⟩ : BufTy).Contents (Elt F)) : (⟨S_, .f32⟩ : BufTy).Contents (Elt F) :=
  Host.reduceAdd (shareRace (F := F) s rk mk) (zeroS (F := F)) reducesTo_S16384_S_d0 h_S_

/-- Some race contributes. -/
def anyB (rk : (⟨S16384x64, .i32⟩ : BufTy).Contents (Elt F)) (mk : (⟨S16384x64, .i1⟩ : BufTy).Contents (Elt F)) : (⟨S_, .i1⟩ : BufTy).Contents (Elt F) :=
  cmpf .ogt (nRaces (F := F) rk mk) (zeroS (F := F))

/-- The number of contributing races, at least one. -/
def racesDen (rk : (⟨S16384x64, .i32⟩ : BufTy).Contents (Elt F)) (mk : (⟨S16384x64, .i1⟩ : BufTy).Contents (Elt F)) : (⟨S_, .f32⟩ : BufTy).Contents (Elt F) :=
  maximumf (nRaces (F := F) rk mk) (oneS (F := F))

/-- The mean loss. -/
def meanLoss (s : (⟨S16384x64, .f32⟩ : BufTy).Contents (Elt F)) (rk : (⟨S16384x64, .i32⟩ : BufTy).Contents (Elt F)) (mk : (⟨S16384x64, .i1⟩ : BufTy).Contents (Elt F)) : (⟨S_, .f32⟩ : BufTy).Contents (Elt F) :=
  Host.divf (sumLoss (F := F) s rk mk) (racesDen (F := F) rk mk)

/-- The result: the mean loss if some race contributes, else `0.0`. -/
def refTerm (s : (⟨S16384x64, .f32⟩ : BufTy).Contents (Elt F)) (rk : (⟨S16384x64, .i32⟩ : BufTy).Contents (Elt F)) (mk : (⟨S16384x64, .i1⟩ : BufTy).Contents (Elt F)) : (⟨S_, .f32⟩ : BufTy).Contents (Elt F) :=
  select (anyB (F := F) rk mk) (meanLoss (F := F) s rk mk) (zeroS (F := F))

/-! ## The operation list and its run -/

/-- @main's 52 operations, in program order. -/
abbrev ops : List (HloOp τ sig (Elt F)) :=
  [ nullary main_c (constantI S_ 32 0#32),
    unary main_c main_v0 (broadcastInDim S16384x64 ![] bcast_S_S16384x64 : (⟨S_, .i32⟩ : BufTy).Contents (Elt F) → (⟨S16384x64, .i32⟩ : BufTy).Contents (Elt F)),
    binary main_arg1 main_v0 main_v1 (cmpi .sgt : (⟨S16384x64, .i32⟩ : BufTy).Contents (Elt F) → (⟨S16384x64, .i32⟩ : BufTy).Contents (Elt F) → (⟨S16384x64, .i1⟩ : BufTy).Contents (Elt F)),
    binary main_arg2 main_v1 main_v2 (andi : (⟨S16384x64, .i1⟩ : BufTy).Contents (Elt F) → (⟨S16384x64, .i1⟩ : BufTy).Contents (Elt F) → (⟨S16384x64, .i1⟩ : BufTy).Contents (Elt F)),
    unary main_v2 main_v3 (broadcastInDim S16384x64x1 ![0, 1] bcast_S16384x64_S16384x64x1_0_1 : (⟨S16384x64, .i1⟩ : BufTy).Contents (Elt F) → (⟨S16384x64x1, .i1⟩ : BufTy).Contents (Elt F)),
    unary main_v2 main_v4 (broadcastInDim S16384x1x64 ![0, 2] bcast_S16384x64_S16384x1x64_0_2 : (⟨S16384x64, .i1⟩ : BufTy).Contents (Elt F) → (⟨S16384x1x64, .i1⟩ : BufTy).Contents (Elt F)),
    unary main_v3 main_v5 (broadcastInDim S16384x64x64 ![0, 1, 2] bcast_S16384x64x1_S16384x64x64_0_1_2 : (⟨S16384x64x1, .i1⟩ : BufTy).Contents (Elt F) → (⟨S16384x64x64, .i1⟩ : BufTy).Contents (Elt F)),
    unary main_v4 main_v6 (broadcastInDim S16384x64x64 ![0, 1, 2] bcast_S16384x1x64_S16384x64x64_0_1_2 : (⟨S16384x1x64, .i1⟩ : BufTy).Contents (Elt F) → (⟨S16384x64x64, .i1⟩ : BufTy).Contents (Elt F)),
    binary main_v5 main_v6 main_v7 (andi : (⟨S16384x64x64, .i1⟩ : BufTy).Contents (Elt F) → (⟨S16384x64x64, .i1⟩ : BufTy).Contents (Elt F) → (⟨S16384x64x64, .i1⟩ : BufTy).Contents (Elt F)),
    unary main_arg1 main_v8 (broadcastInDim S16384x64x1 ![0, 1] bcast_S16384x64_S16384x64x1_0_1 : (⟨S16384x64, .i32⟩ : BufTy).Contents (Elt F) → (⟨S16384x64x1, .i32⟩ : BufTy).Contents (Elt F)),
    unary main_arg1 main_v9 (broadcastInDim S16384x1x64 ![0, 2] bcast_S16384x64_S16384x1x64_0_2 : (⟨S16384x64, .i32⟩ : BufTy).Contents (Elt F) → (⟨S16384x1x64, .i32⟩ : BufTy).Contents (Elt F)),
    unary main_v8 main_v10 (broadcastInDim S16384x64x64 ![0, 1, 2] bcast_S16384x64x1_S16384x64x64_0_1_2 : (⟨S16384x64x1, .i32⟩ : BufTy).Contents (Elt F) → (⟨S16384x64x64, .i32⟩ : BufTy).Contents (Elt F)),
    unary main_v9 main_v11 (broadcastInDim S16384x64x64 ![0, 1, 2] bcast_S16384x1x64_S16384x64x64_0_1_2 : (⟨S16384x1x64, .i32⟩ : BufTy).Contents (Elt F) → (⟨S16384x64x64, .i32⟩ : BufTy).Contents (Elt F)),
    binary main_v10 main_v11 main_v12 (cmpi .slt : (⟨S16384x64x64, .i32⟩ : BufTy).Contents (Elt F) → (⟨S16384x64x64, .i32⟩ : BufTy).Contents (Elt F) → (⟨S16384x64x64, .i1⟩ : BufTy).Contents (Elt F)),
    binary main_v7 main_v12 main_v13 (andi : (⟨S16384x64x64, .i1⟩ : BufTy).Contents (Elt F) → (⟨S16384x64x64, .i1⟩ : BufTy).Contents (Elt F) → (⟨S16384x64x64, .i1⟩ : BufTy).Contents (Elt F)),
    unary main_arg0 main_v14 (broadcastInDim S16384x64x1 ![0, 1] bcast_S16384x64_S16384x64x1_0_1 : (⟨S16384x64, .f32⟩ : BufTy).Contents (Elt F) → (⟨S16384x64x1, .f32⟩ : BufTy).Contents (Elt F)),
    unary main_arg0 main_v15 (broadcastInDim S16384x1x64 ![0, 2] bcast_S16384x64_S16384x1x64_0_2 : (⟨S16384x64, .f32⟩ : BufTy).Contents (Elt F) → (⟨S16384x1x64, .f32⟩ : BufTy).Contents (Elt F)),
    unary main_v14 main_v16 (broadcastInDim S16384x64x64 ![0, 1, 2] bcast_S16384x64x1_S16384x64x64_0_1_2 : (⟨S16384x64x1, .f32⟩ : BufTy).Contents (Elt F) → (⟨S16384x64x64, .f32⟩ : BufTy).Contents (Elt F)),
    unary main_v15 main_v17 (broadcastInDim S16384x64x64 ![0, 1, 2] bcast_S16384x1x64_S16384x64x64_0_1_2 : (⟨S16384x1x64, .f32⟩ : BufTy).Contents (Elt F) → (⟨S16384x64x64, .f32⟩ : BufTy).Contents (Elt F)),
    binary main_v16 main_v17 main_v18 (subf : (⟨S16384x64x64, .f32⟩ : BufTy).Contents (Elt F) → (⟨S16384x64x64, .f32⟩ : BufTy).Contents (Elt F) → (⟨S16384x64x64, .f32⟩ : BufTy).Contents (Elt F)),
    nullary main_cst (constant S_ .f32 0x3F800000#32),
    unary main_cst main_v19 (broadcastInDim S16384x64x64 ![] bcast_S_S16384x64x64 : (⟨S_, .f32⟩ : BufTy).Contents (Elt F) → (⟨S16384x64x64, .f32⟩ : BufTy).Contents (Elt F)),
    binary main_v19 main_v18 main_v20 (subf : (⟨S16384x64x64, .f32⟩ : BufTy).Contents (Elt F) → (⟨S16384x64x64, .f32⟩ : BufTy).Contents (Elt F) → (⟨S16384x64x64, .f32⟩ : BufTy).Contents (Elt F)),
    nullary main_cst_0 (constant S_ .f32 0x00000000#32),
    unary main_cst_0 main_v21 (broadcastInDim S16384x64x64 ![] bcast_S_S16384x64x64 : (⟨S_, .f32⟩ : BufTy).Contents (Elt F) → (⟨S16384x64x64, .f32⟩ : BufTy).Contents (Elt F)),
    binary main_v20 main_v21 main_v22 (maximumf : (⟨S16384x64x64, .f32⟩ : BufTy).Contents (Elt F) → (⟨S16384x64x64, .f32⟩ : BufTy).Contents (Elt F) → (⟨S16384x64x64, .f32⟩ : BufTy).Contents (Elt F)),
    unary main_v13 main_v23 (uitofp .f32 : (⟨S16384x64x64, .i1⟩ : BufTy).Contents (Elt F) → (⟨S16384x64x64, .f32⟩ : BufTy).Contents (Elt F)),
    nullary main_cst_1 (constant S_ .f32 0x00000000#32),
    binary main_v23 main_cst_1 main_v24 ((fun x v => Host.reduceAdd x v reducesTo_S16384x64x64_S16384_d1_2 h_S_) : (⟨S16384x64x64, .f32⟩ : BufTy).Contents (Elt F) → (⟨S_, .f32⟩ : BufTy).Contents (Elt F) → (⟨S16384, .f32⟩ : BufTy).Contents (Elt F)),
    binary main_v22 main_v23 main_v25 (mulf : (⟨S16384x64x64, .f32⟩ : BufTy).Contents (Elt F) → (⟨S16384x64x64, .f32⟩ : BufTy).Contents (Elt F) → (⟨S16384x64x64, .f32⟩ : BufTy).Contents (Elt F)),
    nullary main_cst_2 (constant S_ .f32 0x00000000#32),
    binary main_v25 main_cst_2 main_v26 ((fun x v => Host.reduceAdd x v reducesTo_S16384x64x64_S16384_d1_2 h_S_) : (⟨S16384x64x64, .f32⟩ : BufTy).Contents (Elt F) → (⟨S_, .f32⟩ : BufTy).Contents (Elt F) → (⟨S16384, .f32⟩ : BufTy).Contents (Elt F)),
    nullary main_cst_3 (constant S_ .f32 0x3F800000#32),
    unary main_cst_3 main_v27 (broadcastInDim S16384 ![] bcast_S_S16384 : (⟨S_, .f32⟩ : BufTy).Contents (Elt F) → (⟨S16384, .f32⟩ : BufTy).Contents (Elt F)),
    binary main_v24 main_v27 main_v28 (maximumf : (⟨S16384, .f32⟩ : BufTy).Contents (Elt F) → (⟨S16384, .f32⟩ : BufTy).Contents (Elt F) → (⟨S16384, .f32⟩ : BufTy).Contents (Elt F)),
    binary main_v26 main_v28 main_v29 (Host.divf : (⟨S16384, .f32⟩ : BufTy).Contents (Elt F) → (⟨S16384, .f32⟩ : BufTy).Contents (Elt F) → (⟨S16384, .f32⟩ : BufTy).Contents (Elt F)),
    nullary main_cst_4 (constant S_ .f32 0x00000000#32),
    unary main_cst_4 main_v30 (broadcastInDim S16384 ![] bcast_S_S16384 : (⟨S_, .f32⟩ : BufTy).Contents (Elt F) → (⟨S16384, .f32⟩ : BufTy).Contents (Elt F)),
    binary main_v24 main_v30 main_v31 (cmpf .ogt : (⟨S16384, .f32⟩ : BufTy).Contents (Elt F) → (⟨S16384, .f32⟩ : BufTy).Contents (Elt F) → (⟨S16384, .i1⟩ : BufTy).Contents (Elt F)),
    unary main_v31 main_v32 (uitofp .f32 : (⟨S16384, .i1⟩ : BufTy).Contents (Elt F) → (⟨S16384, .f32⟩ : BufTy).Contents (Elt F)),
    nullary main_cst_5 (constant S_ .f32 0x00000000#32),
    binary main_v32 main_cst_5 main_v33 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    binary main_v29 main_v32 main_v34 (mulf : (⟨S16384, .f32⟩ : BufTy).Contents (Elt F) → (⟨S16384, .f32⟩ : BufTy).Contents (Elt F) → (⟨S16384, .f32⟩ : BufTy).Contents (Elt F)),
    nullary main_cst_6 (constant S_ .f32 0x00000000#32),
    binary main_v34 main_cst_6 main_v35 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_7 (constant S_ .f32 0x00000000#32),
    binary main_v33 main_cst_7 main_v36 (cmpf .ogt : (⟨S_, .f32⟩ : BufTy).Contents (Elt F) → (⟨S_, .f32⟩ : BufTy).Contents (Elt F) → (⟨S_, .i1⟩ : BufTy).Contents (Elt F)),
    nullary main_cst_8 (constant S_ .f32 0x3F800000#32),
    binary main_v33 main_cst_8 main_v37 (maximumf : (⟨S_, .f32⟩ : BufTy).Contents (Elt F) → (⟨S_, .f32⟩ : BufTy).Contents (Elt F) → (⟨S_, .f32⟩ : BufTy).Contents (Elt F)),
    binary main_v35 main_v37 main_v38 (Host.divf : (⟨S_, .f32⟩ : BufTy).Contents (Elt F) → (⟨S_, .f32⟩ : BufTy).Contents (Elt F) → (⟨S_, .f32⟩ : BufTy).Contents (Elt F)),
    nullary main_cst_9 (constant S_ .f32 0x00000000#32),
    TRef.ternary (TRef.of (T := ⟨S_, .i1⟩) main_v36) (TRef.of (T := ⟨S_, .f32⟩) main_v38) (TRef.of (T := ⟨S_, .f32⟩) main_cst_9) (TRef.of (T := ⟨S_, .f32⟩) main_v39) select ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., binary_bufs_sub .., nullary_bufs_sub .., binary_bufs_sub .., nullary_bufs_sub .., unary_bufs_sub .., binary_bufs_sub .., binary_bufs_sub .., nullary_bufs_sub .., unary_bufs_sub .., binary_bufs_sub .., unary_bufs_sub .., nullary_bufs_sub .., binary_bufs_sub .., binary_bufs_sub .., nullary_bufs_sub .., binary_bufs_sub .., nullary_bufs_sub .., binary_bufs_sub .., nullary_bufs_sub .., binary_bufs_sub .., binary_bufs_sub .., nullary_bufs_sub .., ternary_bufs_sub ..⟩

set_option maxRecDepth 8192 in
set_option maxHeartbeats 2000000 in
/-- On every device, for any float values, from any memory with zero counters: every weakly fair execution of
    @main terminates with the result at `refTerm` of the three arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = refTerm (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v39).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefValue

end
-- ==== Proof.RefRead.lean ====
/-
  The reference's composed term at the ideal values is the pairwise ranking loss of the specification.

  Every stage is read at explicit coordinates — a race `r`, runners `j` and `k` —: a broadcast reads its operand
  at the coordinates it keeps, an elementwise operation reads its operands at the same coordinates, the conversion
  of a one-bit word is the number `0` or `1` it denotes, a sum over the two runner axes of a `16384 × 64 × 64` array
  is the double sum over `j` and `k`, and a sum over the races is the sum over `r`. The scalar `0.0` a sum starts
  from is the extended real `0`.
-/
import proofs.«141919_j3427383902894_2_alg».proof.Proof.RefRun
import proofs.«141919_j3427383902894_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The broadcasts at coordinates -/

section Layout

variable {α : Type}

/-- A `[16384, 64]` array as a column `[16384, 64, 1]`, at `(r, j, z)`: the array at `(r, j)`. -/
theorem col_at (x : S16384x64.Idx → α) (r : Fin 16384) (j : Fin 64) (z : Fin 1) :
    broadcastInDim S16384x64x1 ![0, 1] bcast_S16384x64_S16384x64x1_0_1 x (ix3 r j z) = x (ix2 r j) :=
  broadcastInDim_apply _ bcast_S16384x64_S16384x64x1_0_1 x (ix3 r j z) (ix2 r j) (fun a => match a with
    | ⟨0, _⟩ => by show r.val = if (16384 : Nat) = 1 then 0 else r.val; rw [if_neg (by decide)]
    | ⟨1, _⟩ => by show j.val = if (64 : Nat) = 1 then 0 else j.val; rw [if_neg (by decide)])

/-- A `[16384, 64]` array as a row `[16384, 1, 64]`, at `(r, z, k)`: the array at `(r, k)`. -/
theorem row_at (x : S16384x64.Idx → α) (r : Fin 16384) (z : Fin 1) (k : Fin 64) :
    broadcastInDim S16384x1x64 ![0, 2] bcast_S16384x64_S16384x1x64_0_2 x (ix3 r z k) = x (ix2 r k) :=
  broadcastInDim_apply _ bcast_S16384x64_S16384x1x64_0_2 x (ix3 r z k) (ix2 r k) (fun a => match a with
    | ⟨0, _⟩ => by show r.val = if (16384 : Nat) = 1 then 0 else r.val; rw [if_neg (by decide)]
    | ⟨1, _⟩ => by show k.val = if (64 : Nat) = 1 then 0 else k.val; rw [if_neg (by decide)])

/-- A column spread over the last axis, at `(r, j, k)`: the column at `(r, j, 0)`. -/
theorem spreadCol_at (y : S16384x64x1.Idx → α) (r : Fin 16384) (j k : Fin 64) :
    broadcastInDim S16384x64x64 ![0, 1, 2] bcast_S16384x64x1_S16384x64x64_0_1_2 y (ix3 r j k) = y (ix3 r j (0 : Fin 1)) :=
  broadcastInDim_apply _ bcast_S16384x64x1_S16384x64x64_0_1_2 y (ix3 r j k) (ix3 r j (0 : Fin 1)) (fun a => match a with
    | ⟨0, _⟩ => by show r.val = if (16384 : Nat) = 1 then 0 else r.val; rw [if_neg (by decide)]
    | ⟨1, _⟩ => by show j.val = if (64 : Nat) = 1 then 0 else j.val; rw [if_neg (by decide)]
    | ⟨2, _⟩ => by show (0 : Nat) = if (1 : Nat) = 1 then 0 else k.val; rw [if_pos rfl])

/-- A row spread over the middle axis, at `(r, j, k)`: the row at `(r, 0, k)`. -/
theorem spreadRow_at (y : S16384x1x64.Idx → α) (r : Fin 16384) (j k : Fin 64) :
    broadcastInDim S16384x64x64 ![0, 1, 2] bcast_S16384x1x64_S16384x64x64_0_1_2 y (ix3 r j k) = y (ix3 r (0 : Fin 1) k) :=
  broadcastInDim_apply _ bcast_S16384x1x64_S16384x64x64_0_1_2 y (ix3 r j k) (ix3 r (0 : Fin 1) k) (fun a => match a with
    | ⟨0, _⟩ => by show r.val = if (16384 : Nat) = 1 then 0 else r.val; rw [if_neg (by decide)]
    | ⟨1, _⟩ => by show (0 : Nat) = if (1 : Nat) = 1 then 0 else j.val; rw [if_pos rfl]
    | ⟨2, _⟩ => by show k.val = if (64 : Nat) = 1 then 0 else k.val; rw [if_neg (by decide)])

/-- The two broadcasts that put runner `j`'s value at every pair `(j, k)`. -/
theorem first_at (x : S16384x64.Idx → α) (r : Fin 16384) (j k : Fin 64) :
    broadcastInDim S16384x64x64 ![0, 1, 2] bcast_S16384x64x1_S16384x64x64_0_1_2
      (broadcastInDim S16384x64x1 ![0, 1] bcast_S16384x64_S16384x64x1_0_1 x) (ix3 r j k) = x (ix2 r j) := by
  rw [spreadCol_at, col_at]

/-- The two broadcasts that put runner `k`'s value at every pair `(j, k)`. -/
theorem second_at (x : S16384x64.Idx → α) (r : Fin 16384) (j k : Fin 64) :
    broadcastInDim S16384x64x64 ![0, 1, 2] bcast_S16384x1x64_S16384x64x64_0_1_2
      (broadcastInDim S16384x1x64 ![0, 2] bcast_S16384x64_S16384x1x64_0_2 x) (ix3 r j k) = x (ix2 r k) := by
  rw [spreadRow_at, row_at]

end Layout

/-! ## The sums at coordinates -/

/-- Dropping the two runner axes of `(r, j, k)` leaves the race `r`. -/
theorem drop_pairs (r : Fin 16384) (j k : Fin 64) :
    reducesTo_S16384x64x64_S16384_d1_2.drop (ix3 r j k) = ix1 r := by
  funext b
  match b with
  | ⟨0, _⟩ => exact Fin.ext (Shape.ReducesTo.drop_apply_val_of_eq reducesTo_S16384x64x64_S16384_d1_2 (ix3 r j k) ⟨0, Nat.one_pos⟩ 0)

/-- An index whose two runner axes drop to race `r` has first coordinate `r`. -/
theorem coord_of_drop (i : S16384x64x64.Idx) (r : Fin 16384)
    (h : reducesTo_S16384x64x64_S16384_d1_2.drop i = ix1 r) : (i 0).val = r.val :=
  (Shape.ReducesTo.drop_apply_val_of_eq reducesTo_S16384x64x64_S16384_d1_2 i ⟨0, Nat.one_pos⟩ 0).symm.trans
    (congrArg Fin.val (congrFun h ⟨0, Nat.one_pos⟩))

/-- The host's sum over the two runner axes, at race `r`: the initial value plus the double sum over the pairs. -/
theorem sum_pairs_at (x : S16384x64x64.Idx → EReal) (init : EReal) (r : Fin 16384) :
    Ideal.hostReduceAdd reducesTo_S16384x64x64_S16384_d1_2 x init (ix1 r)
      = init + ∑ j : Fin 64, ∑ k : Fin 64, x (ix3 r j k) := by
  unfold Ideal.hostReduceAdd
  refine congrArg (fun t => init + t) ?_
  rw [← Finset.sum_product', Finset.univ_product_univ]
  symm
  refine Finset.sum_bij' (fun p _ => ix3 r p.1 p.2) (fun i _ => ((i 1 : Fin 64), (i 2 : Fin 64))) ?_ ?_ ?_ ?_ ?_
  · intro p _
    exact Finset.mem_filter.mpr ⟨Finset.mem_univ _, drop_pairs r p.1 p.2⟩
  · intro i _
    exact Finset.mem_univ _
  · intro p _
    rfl
  · intro i hi
    have h0 : (i 0 : Fin 16384) = r := Fin.ext (coord_of_drop i r (Finset.mem_filter.mp hi).2)
    show ix3 r (i 1) (i 2) = i
    rw [← h0]
    exact (eq_ix3 i).symm
  · intro p _
    rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Fintype.sum_equiv (⟨fun a => ix1 a, fun i => i 0, fun _ => rfl, fun i => (eq_ix1 i).symm⟩ : Fin n ≃ (⟨1, ![n]⟩ : Shape).Idx)
    (fun a => f (ix1 a)) f fun _ => rfl).symm

/-! ## The stages at coordinates -/

/-- At the ideal values a float comparison is the extended reals'. -/
theorem cmpf_ideal (p : CmpFPredicate) (x y : EReal) :
    FloatOps.cmpf (F := Ideal) (φ := .f32) p x y = Ideal.cmp p x y := rfl

section Stages

variable (s : (⟨S16384x64, .f32⟩ : BufTy).Contents (Elt Ideal)) (rk : (⟨S16384x64, .i32⟩ : BufTy).Contents (Elt Ideal)) (mk : (⟨S16384x64, .i1⟩ : BufTy).Contents (Elt Ideal))

/-- Runner `j` of race `r` is valid. -/
theorem okRunner_at (r : Fin 16384) (j : Fin 64) :
    okRunner (F := Ideal) rk mk (ix2 r j) = PairRank.valid rk mk r j := rfl

/-- The pair `(j, k)` of race `r` counts: both valid, `j` ranked strictly ahead of `k`. -/
theorem counted_at (r : Fin 16384) (j k : Fin 64) :
    counted (F := Ideal) rk mk (ix3 r j k)
      = IntOp.andi (IntOp.andi (PairRank.valid rk mk r j) (PairRank.valid rk mk r k))
          (IntOp.cmpi .slt (rk (ix2 r j)) (rk (ix2 r k))) := by
  show IntOp.andi (IntOp.andi (okFst (F := Ideal) rk mk (ix3 r j k)) (okSnd (F := Ideal) rk mk (ix3 r j k)))
      (IntOp.cmpi .slt (rkFst (F := Ideal) rk (ix3 r j k)) (rkSnd (F := Ideal) rk (ix3 r j k))) = _
  unfold okFst okSnd okCol okRow rkFst rkSnd rkCol rkRow
  rw [first_at, second_at, first_at, second_at]
  rfl

/-- As a number, that is the specification's `pair`. -/
theorem countedF_at (r : Fin 16384) (j k : Fin 64) :
    countedF (F := Ideal) rk mk (ix3 r j k) = PairRank.pair rk mk r j k := by
  show PairRank.bit (counted (F := Ideal) rk mk (ix3 r j k)) = _
  rw [counted_at]
  rfl

/-- The hinge of the pair `(j, k)` of race `r`. -/
theorem hingeCube_at (r : Fin 16384) (j k : Fin 64) :
    hingeCube (F := Ideal) s (ix3 r j k) = PairRank.hinge s r j k := by
  show max (Ideal.ofBits .f32 0x3F800000#32 - (scFst (F := Ideal) s (ix3 r j k) - scSnd (F := Ideal) s (ix3 r j k)))
      (Ideal.ofBits .f32 0x00000000#32) = _
  unfold scFst scSnd scCol scRow
  rw [first_at, second_at]
  rfl

/-- What the pair pays. -/
theorem paidCube_at (r : Fin 16384) (j k : Fin 64) :
    paidCube (F := Ideal) s rk mk (ix3 r j k) = PairRank.hinge s r j k * PairRank.pair rk mk r j k := by
  show hingeCube (F := Ideal) s (ix3 r j k) * countedF (F := Ideal) rk mk (ix3 r j k) = _
  rw [hingeCube_at, countedF_at]

/-- The number of counted pairs of race `r`. -/
theorem nPairs_at (r : Fin 16384) :
    nPairs (F := Ideal) rk mk (ix1 r) = PairRank.numPairs rk mk r := by
  show Ideal.hostReduceAdd reducesTo_S16384x64x64_S16384_d1_2 (countedF (F := Ideal) rk mk)
      (Ideal.ofBits .f32 0x00000000#32) (ix1 r) = _
  rw [sum_pairs_at, Ideal.ofBits_zero_f32, zero_add]
  unfold PairRank.numPairs
  simp only [countedF_at]

/-- What race `r`'s counted pairs pay in all. -/
theorem paidRace_at (r : Fin 16384) :
    paidRace (F := Ideal) s rk mk (ix1 r) = PairRank.paid s rk mk r := by
  show Ideal.hostReduceAdd reducesTo_S16384x64x64_S16384_d1_2 (paidCube (F := Ideal) s rk mk)
      (Ideal.ofBits .f32 0x00000000#32) (ix1 r) = _
  rw [sum_pairs_at, Ideal.ofBits_zero_f32, zero_add]
  unfold PairRank.paid
  simp only [paidCube_at]

/-- Race `r` has a counted pair, as `0` or `1`. -/
theorem hasF_at (r : Fin 16384) :
    hasF (F := Ideal) rk mk (ix1 r) = PairRank.has rk mk r := by
  show PairRank.bit (FloatOps.cmpf (F := Ideal) (φ := .f32) .ogt (nPairs (F := Ideal) rk mk (ix1 r))
      (Ideal.ofBits .f32 0x00000000#32)) = _
  rw [nPairs_at, cmpf_ideal]
  rfl

/-- Race `r`'s loss, counted only if it contributes. -/
theorem shareRace_at (r : Fin 16384) :
    shareRace (F := Ideal) s rk mk (ix1 r) = PairRank.share s rk mk r := by
  show FloatOps.hostDivf (F := Ideal) (φ := .f32) (paidRace (F := Ideal) s rk mk (ix1 r))
      (max (nPairs (F := Ideal) rk mk (ix1 r)) (Ideal.ofBits .f32 0x3F800000#32)) * hasF (F := Ideal) rk mk (ix1 r) = _
  rw [paidRace_at, nPairs_at, hasF_at, Ideal.hostDivf_def]
  rfl

/-- The number of contributing races. -/
theorem nRaces_at (i : S_.Idx) : nRaces (F := Ideal) rk mk i = PairRank.count rk mk := by
  show Ideal.hostReduceAdd reducesTo_S16384_S_d0 (hasF (F := Ideal) rk mk) (Ideal.ofBits .f32 0x00000000#32) i = _
  rw [Ideal.hostReduceAdd_total reducesTo_S16384_S_d0 (fun b => b.elim0), Ideal.ofBits_zero_f32, zero_add, sum_idx1]
  unfold PairRank.count
  simp only [hasF_at]

/-- The sum of the contributing races' losses. -/
theorem sumLoss_at (i : S_.Idx) : sumLoss (F := Ideal) s rk mk i = PairRank.total s rk mk := by
  show Ideal.hostReduceAdd reducesTo_S16384_S_d0 (shareRace (F := Ideal) s rk mk) (Ideal.ofBits .f32 0x00000000#32) i = _
  rw [Ideal.hostReduceAdd_total reducesTo_S16384_S_d0 (fun b => b.elim0), Ideal.ofBits_zero_f32, zero_add, sum_idx1]
  unfold PairRank.total
  simp only [shareRace_at]

/-- THE REFERENCE'S VALUE at the ideal values: the specification's result, at the scalar's one index. -/
theorem refTerm_eq : refTerm (F := Ideal) s rk mk = fun _ => PairRank.result s rk mk := by
  funext i
  show Scalar.select (FloatOps.cmpf (F := Ideal) (φ := .f32) .ogt (nRaces (F := Ideal) rk mk i) (Ideal.ofBits .f32 0x00000000#32))
      (FloatOps.hostDivf (F := Ideal) (φ := .f32) (sumLoss (F := Ideal) s rk mk i)
        (max (nRaces (F := Ideal) rk mk i) (Ideal.ofBits .f32 0x3F800000#32)))
      (Ideal.ofBits .f32 0x00000000#32) = _
  rw [nRaces_at, sumLoss_at, cmpf_ideal, Ideal.hostDivf_def]
  rfl

end Stages

end Cert.ReferenceIdeal.RefValue

end
-- ==== Proof.lean ====
/-
  The kernel and the reference compute one function: the pairwise ranking hinge loss.

  Both programs, at the extended reals, end with their result buffer at `Cert.PairRank.result` of the three argument
  arrays (Proof/Spec.lean): the mean, over the races that have a counted pair, of each race's hinge payments divided
  by its number of counted pairs, `0` when no race has one.

  The reference computes it directly: the `16384 × 64 × 64` table of ordered pairs, two sums over the runner axes,
  two sums over the races (Proof/RefRun.lean, Proof/RefRead.lean). The kernel walks the races in 128 blocks of 128:
  per block it builds the `128 × 64 × 64` pair table as a PRODUCT of 0/1 floats — equal to the 0/1 value of the
  conjunction the reference takes —, sums it lane by lane, and adds the block's two sums to two one-word accumulators
  that the first block resets (Proof/Payload.lean, Proof/Accum.lean); the last block writes the accumulators back and
  the host operations after the kernel take the mean (Proof/Tail.lean). The two differ only by how finite sums are
  grouped, and sums of extended reals re-group freely; no step uses that the inputs are finite.

  The three frames: the two kernel programs' are the generated frame theorems; the reference's is its run with the
  result dropped. The idealization rewrote nothing, so what it must preserve is `True`.
-/
import proofs.«141919_j3427383902894_2_alg».proof.Defs
import proofs.«141919_j3427383902894_2_alg».proof.Proof.Gen.Kernel
import proofs.«141919_j3427383902894_2_alg».proof.Proof.Gen.Kernel.Frame
import proofs.«141919_j3427383902894_2_alg».proof.Proof.Gen.KernelIdeal
import proofs.«141919_j3427383902894_2_alg».proof.Proof.Gen.KernelIdeal.Frame
import proofs.«141919_j3427383902894_2_alg».proof.Proof.Gen.ReferenceIdeal
import proofs.«141919_j3427383902894_2_alg».proof.Proof.Gen.Pre_finite_inputs
import proofs.«141919_j3427383902894_2_alg».proof.Proof.Spec
import proofs.«141919_j3427383902894_2_alg».proof.Proof.Accum
import proofs.«141919_j3427383902894_2_alg».proof.Proof.Tail
import proofs.«141919_j3427383902894_2_alg».proof.Proof.RefRead
import Idealize.ShloMosaic.Adequacy
import Idealize.ShloMosaic.Init

noncomputable section

namespace Cert.Proof

open Idealize.ShloMosaic Idealize.ShloMosaic.TcCoe Idealize.SL.Sem

/-- The kernel's result buffer ends at the loss of its own three arguments. -/
theorem kernel_result (m : (ℓ : Loc Cert.KernelIdeal.nD Cert.KernelIdeal.τ Cert.KernelIdeal.sig) → Buf (Elt Ideal) ℓ) (c : Dev Cert.KernelIdeal.nD) :
    Pipeline.afterTail₀ Cert.KernelIdeal.cfgs (Cert.KernelIdeal.Gen.dats m) 0 (Cert.KernelIdeal.Gen.V0 m)
        [Cert.KernelIdeal.Gen.hostOps1, Cert.KernelIdeal.Gen.hostOps1_1] c Cert.KernelIdeal.main_v7
      = fun _ => Cert.PairRank.result (Cert.KernelIdeal.Accum.scores m c) (Cert.KernelIdeal.Accum.ranks m c) (Cert.KernelIdeal.Accum.mask m c) := by
  rw [Cert.KernelIdeal.Tail.tail_eq m c _ _ (Cert.KernelIdeal.Accum.final_total m c) (Cert.KernelIdeal.Accum.final_count m c),
    Cert.KernelIdeal.Accum.accT_last, Cert.KernelIdeal.Accum.accC_last]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run (F := Ideal) m ρ)

/-- At the extended reals both programs end at the same loss of arguments that agree. -/
theorem algebraic : Cert.algebraic_KernelIdeal_ReferenceIdeal := by
  intro m ρ m' ρ' _ hagree
  refine ⟨fun c => fun _ => Cert.PairRank.result (Cert.KernelIdeal.Accum.scores m c) (Cert.KernelIdeal.Accum.ranks m c)
    (Cert.KernelIdeal.Accum.mask m c), ?_, ?_⟩
  · exact (θ_run Cert.KernelIdeal.defs _ _).mono (fun _ h c => ⟨(h c).1.trans (kernel_result m c), (h c).2⟩)
      (Cert.KernelIdeal.Tail.run m ρ)
  · refine (θ_run Cert.ReferenceIdeal.defs _ _).mono (fun _ h c => ⟨(h c).1.trans ?_, (h c).2⟩)
      (Cert.ReferenceIdeal.RefValue.run (F := Ideal) m' ρ')
    rw [Cert.ReferenceIdeal.RefValue.refTerm_eq, (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
